-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S10x64 : Shape := ⟨2, ![10, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S50000 : Shape := ⟨1, ![50000]⟩
abbrev S256 : Shape := ⟨1, ![256]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S10x64 : S_.BroadcastsInDim S10x64 (![] : Fin 0 → Fin S10x64.rank)
  reducesTo_S10x64_S_d0_1 : S10x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_

variable [Facts]

def fn_part5 {F : FTy → Type} [FloatOps F] (main_v83 : IVec S_ 1) (main_v84 : FVec F S2000000 .f32) (main_cst_32 : FVec F S_ .f32) : IVec S_ 1 :=
  let main_v85 : FVec F S2000000 .f32 := broadcastInDim S2000000 ![] bcast_S_S2000000 main_cst_32
  let main_v86 : IVec S2000000 1 := cmpf .olt main_v84 main_v85
  let main_c_33 : IVec S_ 1 := constantI S_ 1 1#1
  let main_v87 : IVec S_ 1 := (fun x v => Host.reduce IntOp.andi x v reducesTo_S2000000_S_d0 h_S_) main_v86 main_c_33
  let main_v88 : IVec S_ 1 := andi main_v83 main_v87
  main_v88

def fn_part4 {F : FTy → Type} [FloatOps F] (main_arg14 : FVec F S64 .f32) (main_arg15 : FVec F S64x1 .f32) (main_arg16 : FVec F S1 .f32) (main_arg17 : FVec F S2000000 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg15
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S2000000 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64x64 .f32) (main_arg12 : FVec F S64 .f32) (main_arg13 : FVec F S128x64 .f32) (main_arg14 : FVec F S64 .f32) (main_arg15 : FVec F S64x1 .f32) (main_arg16 : FVec F S1 .f32) (main_arg17 : FVec F S2000000 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) (main_arg17 : FVec F S2000000 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_v48 main_v49 main_v50

def fn_part1 {F : FTy → Type} [FloatOps F] (main_arg4 : FVec F S10x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) (main_arg17 : FVec F S2000000 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x64 .f32) (main_arg1 : FVec F S50000x64 .f32) (main_arg2 : FVec F S100000x1 .f32) (main_arg3 : FVec F S50000x1 .f32) (main_arg4 : FVec F S10x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S128x64 .f32) (main_arg14 : FVec F S64 .f32) (main_arg15 : FVec F S64x1 .f32) (main_arg16 : FVec F S1 .f32) (main_arg17 : FVec F S2000000 .f32) (main_arg18 : IVec S2000000 32) (main_arg19 : IVec S2000000 32) (main_arg20 : IVec S50000 32) (main_arg21 : IVec S256 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S10x64 : Shape := ⟨2, ![10, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S50000 : Shape := ⟨1, ![50000]⟩
abbrev S256 : Shape := ⟨1, ![256]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S256x1 : Shape := ⟨2, ![256, 1]⟩
abbrev S256x64 : Shape := ⟨2, ![256, 64]⟩
abbrev S1x64 : Shape := ⟨2, ![1, 64]⟩
abbrev S1x50000 : Shape := ⟨2, ![1, 50000]⟩
abbrev S50176x64 : Shape := ⟨2, ![50176, 64]⟩
abbrev S1x50176 : Shape := ⟨2, ![1, 50176]⟩
abbrev S256x50176 : Shape := ⟨2, ![256, 50176]⟩
abbrev S3584x64 : Shape := ⟨2, ![3584, 64]⟩
abbrev S1x3584 : Shape := ⟨2, ![1, 3584]⟩
abbrev S256x3584 : Shape := ⟨2, ![256, 3584]⟩
abbrev S3584x128 : Shape := ⟨2, ![3584, 128]⟩
abbrev S3584x1 : Shape := ⟨2, ![3584, 1]⟩
abbrev S1x1 : Shape := ⟨2, ![1, 1]⟩
abbrev S256x50000 : Shape := ⟨2, ![256, 50000]⟩

abbrev nBuf : Space → Nat
  | .hbm => 144
  | .vmem => 18
  | .smem => 0
  | _ => 0

abbrev hbmTy0_0 (i : Nat) : BufTy := match i % 128 with
  | 0 => ⟨S100000x64, .f32⟩
  | 1 => ⟨S50000x64, .f32⟩
  | 2 => ⟨S100000x1, .f32⟩
  | 3 => ⟨S50000x1, .f32⟩
  | 4 => ⟨S10x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S128x64, .f32⟩
  | 14 => ⟨S64, .f32⟩
  | 15 => ⟨S64x1, .f32⟩
  | 16 => ⟨S1, .f32⟩
  | 17 => ⟨S2000000, .f32⟩
  | 18 => ⟨S2000000, .i32⟩
  | 19 => ⟨S2000000, .i32⟩
  | 20 => ⟨S50000, .i32⟩
  | 21 => ⟨S256, .i32⟩
  | 22 => ⟨S150000x64, .f32⟩
  | 23 => ⟨S_, .f32⟩
  | 24 => ⟨S150000x64, .f32⟩
  | 25 => ⟨S150000x64, .f32⟩
  | 26 => ⟨S2000000x1, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x64, .f32⟩
  | 36 => ⟨S2000000x64, .f32⟩
  | 37 => ⟨S2000000x64, .f32⟩
  | 38 => ⟨S_, .f32⟩
  | 39 => ⟨S150000x64, .f32⟩
  | 40 => ⟨S2000000x1, .i32⟩
  | 41 => ⟨S150000x64, .f32⟩
  | 42 => ⟨S_, .f32⟩
  | 43 => ⟨S150000x64, .f32⟩
  | 44 => ⟨S150000x64, .f32⟩
  | 45 => ⟨S150000x64, .f32⟩
  | 46 => ⟨S2000000x1, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x64, .f32⟩
  | 57 => ⟨S2000000x64, .f32⟩
  | 58 => ⟨S_, .f32⟩
  | 59 => ⟨S150000x64, .f32⟩
  | 60 => ⟨S2000000x1, .i32⟩
  | 61 => ⟨S150000x64, .f32⟩
  | 62 => ⟨S_, .f32⟩
  | 63 => ⟨S150000x64, .f32⟩
  | 64 => ⟨S150000x64, .f32⟩
  | 65 => ⟨S150000x64, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x64, .f32⟩
  | 77 => ⟨S2000000x64, .f32⟩
  | 78 => ⟨S_, .f32⟩
  | 79 => ⟨S150000x64, .f32⟩
  | 80 => ⟨S2000000x1, .i32⟩
  | 81 => ⟨S150000x64, .f32⟩
  | 82 => ⟨S_, .f32⟩
  | 83 => ⟨S150000x64, .f32⟩
  | 84 => ⟨S150000x64, .f32⟩
  | 85 => ⟨S150000x64, .f32⟩
  | 86 => ⟨S100000x64, .f32⟩
  | 87 => ⟨S50000x64, .f32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x64, .f32⟩
  | 97 => ⟨S_, .i32⟩
  | 98 => ⟨S256, .i32⟩
  | 99 => ⟨S256, .i1⟩
  | 100 => ⟨S_, .i32⟩
  | 101 => ⟨S256, .i32⟩
  | 102 => ⟨S256, .i32⟩
  | 103 => ⟨S256, .i32⟩
  | 104 => ⟨S256x1, .i32⟩
  | 105 => ⟨S256x64, .f32⟩
  | 106 => ⟨S256x64, .f32⟩
  | 107 => ⟨S1x64, .f32⟩
  | 108 => ⟨S256x64, .f32⟩
  | 109 => ⟨S256x64, .f32⟩
  | 110 => ⟨S_, .f32⟩
  | 111 => ⟨S256x64, .f32⟩
  | 112 => ⟨S256x64, .f32⟩
  | 113 => ⟨S256x64, .f32⟩
  | 114 => ⟨S1x64, .f32⟩
  | 115 => ⟨S256x64, .f32⟩
  | 116 => ⟨S256x64, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S256x1, .f32⟩
  | 126 => ⟨S_, .f32⟩
  | 127 => ⟨S256x1, .f32⟩
  | _ => ⟨S100000x64, .f32⟩

abbrev hbmTy0_1 (i : Nat) : BufTy := match i % 128 with
  | 0 => ⟨S256x1, .f32⟩
  | 1 => ⟨S1x50000, .f32⟩
  | 2 => ⟨S_, .f32⟩
  | 3 => ⟨S1x50000, .f32⟩
  | 4 => ⟨S1x50000, .f32⟩
  | 5 => ⟨S_, .i32⟩
  | 6 => ⟨S_, .f32⟩
  | 7 => ⟨S50176x64, .f32⟩
  | 8 => ⟨S_, .i32⟩
  | 9 => ⟨S_, .f32⟩
  | 10 => ⟨S50176x64, .f32⟩
  | 11 => ⟨S_, .i32⟩
  | 12 => ⟨S_, .f32⟩
  | 13 => ⟨S1x50176, .f32⟩
  | 14 => ⟨S256x50176, .f32⟩
  | 15 => ⟨S256x50000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S3584x64, .f32⟩
  | .local _ .vmem, ⟨1, _⟩ => ⟨S3584x64, .f32⟩
  | .local _ .vmem, ⟨2, _⟩ => ⟨S3584x64, .f32⟩
  | .local _ .vmem, ⟨3, _⟩ => ⟨S3584x64, .f32⟩
  | .local _ .vmem, ⟨4, _⟩ => ⟨S1x3584, .f32⟩
  | .local _ .vmem, ⟨5, _⟩ => ⟨S1x3584, .f32⟩
  | .local _ .vmem, ⟨6, _⟩ => ⟨S256x64, .f32⟩
  | .local _ .vmem, ⟨7, _⟩ => ⟨S256x1, .f32⟩
  | .local _ .vmem, ⟨8, _⟩ => ⟨S128x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S256x3584, .f32⟩
  | .local _ .vmem, ⟨17, _⟩ => ⟨S256x3584, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_13 : Ref sig .tc := ⟨.hbm, 97, rfl⟩
abbrev main_v60 : Ref sig .tc := ⟨.hbm, 98, rfl⟩
abbrev main_v61 : Ref sig .tc := ⟨.hbm, 99, rfl⟩
abbrev main_c_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call0_cst : Ref sig .tc := ⟨.hbm, 110, rfl⟩
abbrev main_call0_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_15 : Ref sig .tc := ⟨.hbm, 117, rfl⟩
abbrev main_v76 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_18 : Ref sig .tc := ⟨.hbm, 130, rfl⟩
abbrev main_v86 : Ref sig .tc := ⟨.hbm, 131, rfl⟩
abbrev main_v87 : Ref sig .tc := ⟨.hbm, 132, rfl⟩
abbrev main_c_19 : Ref sig .tc := ⟨.hbm, 133, rfl⟩
abbrev main_call1_v0 : Ref sig .tc := ⟨.hbm, 134, rfl⟩
abbrev main_v88 : Ref sig .tc := ⟨.hbm, 135, rfl⟩
abbrev main_c_20 : Ref sig .tc := ⟨.hbm, 136, rfl⟩
abbrev main_call2_v0 : Ref sig .tc := ⟨.hbm, 137, rfl⟩
abbrev main_v89 : Ref sig .tc := ⟨.hbm, 138, rfl⟩
abbrev main_c_21 : Ref sig .tc := ⟨.hbm, 139, rfl⟩
abbrev main_call3_v0 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3584x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3584x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x3584 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S50000 : S_.BroadcastsInDim S50000 (![] : Fin 0 → Fin S50000.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S_S256x1 : S_.BroadcastsInDim S256x1 (![] : Fin 0 → Fin S256x1.rank)
  transposes_S50000x1_S1x50000_1_0 : S50000x1.Transposes [1, 0] S1x50000
  bcast_S_S1x50000 : S_.BroadcastsInDim S1x50000 (![] : Fin 0 → Fin S1x50000.rank)
  pads_S50000x64_S50176x64_01760_000 : S50000x64.Pads (![0, 0] : Fin 2 → Nat) ![176, 0] ![0, 0] S50176x64
  h_S_ : 0 < S_.numel
  pads_S1x50000_S1x50176_000_01760 : S1x50000.Pads (![0, 0] : Fin 2 → Nat) ![0, 176] ![0, 0] S1x50176
  inb_S3584x64_S3584x64_0_0 : ∀ a, (![0, 0] : Fin 2 → Nat) a + S3584x64.size a ≤ S3584x64.size a
  h_S3584x64 : 0 < S3584x64.numel
  shapeCasts_S3584x64_S3584x64 : S3584x64.ShapeCasts S3584x64
  concatenates_S3584x64_S3584x64_S3584x128_d1 : Shape.Concatenates [S3584x64, S3584x64] S3584x128 1
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S3584x64 : S1x64.Broadcasts S3584x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S3584x1 : S1x1.Broadcasts S3584x1
  broadcasts_S3584x1_S3584x64 : S3584x1.Broadcasts S3584x64
  inb_S64x64_S64x64_0_0 : ∀ a, (![0, 0] : Fin 2 → Nat) a + S64x64.size a ≤ S64x64.size a
  h_S64x64 : 0 < S64x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S256x1_S256x3584 : S256x1.Broadcasts S256x3584
  broadcasts_S1x3584_S256x3584 : S1x3584.Broadcasts S256x3584
  inb_S256x3584_S256x3584_0_0 : ∀ a, (![0, 0] : Fin 2 → Nat) a + S256x3584.size a ≤ S256x3584.size a
  h_S256x3584 : 0 < S256x3584.numel
  slices_S256x50176_S256x50000_0_0 : S256x50176.Slices ![0, 0] S256x50000
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S10x64_S50000x1_S50000x64_1_0_n_n_0_1_164_wf : GatherDims.WF S10x64 S50000x1 S50000x64 [1] [0] [] [0] [] 1 ![1, 64]
  gather_S100000x64_S256x1_S256x64_1_0_n_n_0_1_164_wf : GatherDims.WF S100000x64 S256x1 S256x64 [1] [0] [] [0] [] 1 ![1, 64]
  dot_S256x64_S64x64_S256x64_1_0_0_1_n_n_wf : DotDims.WF S256x64 S64x64 S256x64 [1] [0] [0] [1] [] []
  gather_S100000x1_S256x1_S256x1_1_0_n_n_0_1_11_wf : GatherDims.WF S100000x1 S256x1 S256x1 [1] [0] [] [0] [] 1 ![1, 1]
  dot_S3584x128_S128x64_S3584x64_1_0_0_1_n_n_wf : DotDims.WF S3584x128 S128x64 S3584x64 [1] [0] [0] [1] [] []
  dot_S3584x64_S64x1_S3584x1_1_0_0_1_n_n_wf : DotDims.WF S3584x64 S64x1 S3584x1 [1] [0] [0] [1] [] []
  dot_S3584x64_S64x64_S3584x64_1_0_0_1_n_n_wf : DotDims.WF S3584x64 S64x64 S3584x64 [1] [0] [0] [1] [] []
  dot_S256x64_S3584x64_S256x3584_1_1_0_0_n_n_wf : DotDims.WF S256x64 S3584x64 S256x3584 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3584x64.size a ≤ S50176x64.size a
  hwx0_0 : ∀ i : grid0.Coords, EltTy.bits .f32 = 32 ∨ (Rect.block (s := S50176x64) S3584x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3584x64.size a ≤ S50176x64.size a
  hwx0_1 : ∀ i : grid0.Coords, EltTy.bits .f32 = 32 ∨ (Rect.block (s := S50176x64) S3584x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x50176.size a
  hwx0_2 : ∀ i : grid0.Coords, EltTy.bits .f32 = 32 ∨ (Rect.block (s := S1x50176) S1x3584.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x3584.size a ≤ S256x50176.size a
  hwx0_13 : ∀ i : grid0.Coords, EltTy.bits .f32 = 32 ∨ (Rect.block (s := S256x50176) S256x3584.size (cc0_transform_13 i) (hinb0_13 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def gather_S100000x1_S256x1_S256x1_1_0_n_n_0_1_11 : GatherDims S100000x1 S256x1 S256x1 where
  offsetDims := [1]
  collapsedSliceDims := [0]
  operandBatchingDims := []
  startIndicesBatchingDims := []
  startIndexMap := [0]
  indexVectorDim := 1
  sliceSizes := ![1, 1]
  wf := gather_S100000x1_S256x1_S256x1_1_0_n_n_0_1_11_wf
def dot_S3584x128_S128x64_S3584x64_1_0_0_1_n_n : DotDims S3584x128 S128x64 S3584x64 where
  lhsContracting := [1]
  rhsContracting := [0]
  lhsNonContracting := [0]
  rhsNonContracting := [1]
  lhsBatch := []
  rhsBatch := []
  wf := dot_S3584x128_S128x64_S3584x64_1_0_0_1_n_n_wf
def dot_S3584x64_S64x1_S3584x1_1_0_0_1_n_n : DotDims S3584x64 S64x1 S3584x1 where
  lhsContracting := [1]
  rhsContracting := [0]
  lhsNonContracting := [0]
  rhsNonContracting := [1]
  lhsBatch := []
  rhsBatch := []
  wf := dot_S3584x64_S64x1_S3584x1_1_0_0_1_n_n_wf
def dot_S3584x64_S64x64_S3584x64_1_0_0_1_n_n : DotDims S3584x64 S64x64 S3584x64 where
  lhsContracting := [1]
  rhsContracting := [0]
  lhsNonContracting := [0]
  rhsNonContracting := [1]
  lhsBatch := []
  rhsBatch := []
  wf := dot_S3584x64_S64x64_S3584x64_1_0_0_1_n_n_wf
def dot_S256x64_S3584x64_S256x3584_1_1_0_0_n_n : DotDims S256x64 S3584x64 S256x3584 where
  lhsContracting := [1]
  rhsContracting := [1]
  lhsNonContracting := [0]
  rhsNonContracting := [0]
  lhsBatch := []
  rhsBatch := []
  wf := dot_S256x64_S3584x64_S256x3584_1_1_0_0_n_n_wf

abbrev win0_0 : Pipeline.Window sig grid0 :=
  Pipeline.Window.ofSpec (Memref.whole main_v88) S3584x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S3584x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S1x3584.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v84) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v91) S256x3584.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S10x64 : Shape := ⟨2, ![10, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S50000 : Shape := ⟨1, ![50000]⟩
abbrev S256 : Shape := ⟨1, ![256]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S50000x128 : Shape := ⟨2, ![50000, 128]⟩
abbrev S1x64 : Shape := ⟨2, ![1, 64]⟩
abbrev S1x1 : Shape := ⟨2, ![1, 1]⟩
abbrev S256x1 : Shape := ⟨2, ![256, 1]⟩
abbrev S256x64 : Shape := ⟨2, ![256, 64]⟩
abbrev S64x50000 : Shape := ⟨2, ![64, 50000]⟩
abbrev S256x50000 : Shape := ⟨2, ![256, 50000]⟩
abbrev S1x50000 : Shape := ⟨2, ![1, 50000]⟩

abbrev nBuf : Space → Nat
  | .hbm => 178
  | .vmem => 0
  | .smem => 0
  | _ => 0

abbrev hbmTy0_0 (i : Nat) : BufTy := match i % 128 with
  | 0 => ⟨S100000x64, .f32⟩
  | 1 => ⟨S50000x64, .f32⟩
  | 2 => ⟨S100000x1, .f32⟩
  | 3 => ⟨S50000x1, .f32⟩
  | 4 => ⟨S10x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S128x64, .f32⟩
  | 14 => ⟨S64, .f32⟩
  | 15 => ⟨S64x1, .f32⟩
  | 16 => ⟨S1, .f32⟩
  | 17 => ⟨S2000000, .f32⟩
  | 18 => ⟨S2000000, .i32⟩
  | 19 => ⟨S2000000, .i32⟩
  | 20 => ⟨S50000, .i32⟩
  | 21 => ⟨S256, .i32⟩
  | 22 => ⟨S150000x64, .f32⟩
  | 23 => ⟨S_, .f32⟩
  | 24 => ⟨S150000x64, .f32⟩
  | 25 => ⟨S150000x64, .f32⟩
  | 26 => ⟨S2000000x1, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x64, .f32⟩
  | 36 => ⟨S2000000x64, .f32⟩
  | 37 => ⟨S2000000x64, .f32⟩
  | 38 => ⟨S_, .f32⟩
  | 39 => ⟨S150000x64, .f32⟩
  | 40 => ⟨S2000000x1, .i32⟩
  | 41 => ⟨S150000x64, .f32⟩
  | 42 => ⟨S_, .f32⟩
  | 43 => ⟨S150000x64, .f32⟩
  | 44 => ⟨S150000x64, .f32⟩
  | 45 => ⟨S150000x64, .f32⟩
  | 46 => ⟨S2000000x1, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x64, .f32⟩
  | 57 => ⟨S2000000x64, .f32⟩
  | 58 => ⟨S_, .f32⟩
  | 59 => ⟨S150000x64, .f32⟩
  | 60 => ⟨S2000000x1, .i32⟩
  | 61 => ⟨S150000x64, .f32⟩
  | 62 => ⟨S_, .f32⟩
  | 63 => ⟨S150000x64, .f32⟩
  | 64 => ⟨S150000x64, .f32⟩
  | 65 => ⟨S150000x64, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x64, .f32⟩
  | 77 => ⟨S2000000x64, .f32⟩
  | 78 => ⟨S_, .f32⟩
  | 79 => ⟨S150000x64, .f32⟩
  | 80 => ⟨S2000000x1, .i32⟩
  | 81 => ⟨S150000x64, .f32⟩
  | 82 => ⟨S_, .f32⟩
  | 83 => ⟨S150000x64, .f32⟩
  | 84 => ⟨S150000x64, .f32⟩
  | 85 => ⟨S150000x64, .f32⟩
  | 86 => ⟨S100000x64, .f32⟩
  | 87 => ⟨S50000x64, .f32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x64, .f32⟩
  | 97 => ⟨S50000x128, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S50000x1, .f32⟩
  | 106 => ⟨S1x1, .f32⟩
  | 107 => ⟨S50000x1, .f32⟩
  | 108 => ⟨S50000x1, .f32⟩
  | 109 => ⟨S50000x1, .f32⟩
  | 110 => ⟨S50000x1, .f32⟩
  | 111 => ⟨S_, .f32⟩
  | 112 => ⟨S50000x1, .f32⟩
  | 113 => ⟨S50000x1, .f32⟩
  | 114 => ⟨S_, .f32⟩
  | 115 => ⟨S50000x1, .f32⟩
  | 116 => ⟨S50000x1, .f32⟩
  | 117 => ⟨S_, .f32⟩
  | 118 => ⟨S50000x1, .f32⟩
  | 119 => ⟨S50000x1, .f32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S_, .i32⟩
  | 126 => ⟨S256, .i32⟩
  | 127 => ⟨S256, .i1⟩
  | _ => ⟨S100000x64, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S256x64, .f32⟩
  | 6 => ⟨S256x64, .f32⟩
  | 7 => ⟨S1x64, .f32⟩
  | 8 => ⟨S256x64, .f32⟩
  | 9 => ⟨S256x64, .f32⟩
  | 10 => ⟨S_, .f32⟩
  | 11 => ⟨S256x64, .f32⟩
  | 12 => ⟨S256x64, .f32⟩
  | 13 => ⟨S256x64, .f32⟩
  | 14 => ⟨S1x64, .f32⟩
  | 15 => ⟨S256x64, .f32⟩
  | 16 => ⟨S256x64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S64x50000, .f32⟩
  | 29 => ⟨S256x50000, .f32⟩
  | 30 => ⟨S_, .i32⟩
  | 31 => ⟨S256, .i32⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S256x1, .f32⟩
  | 39 => ⟨S_, .f32⟩
  | 40 => ⟨S256x1, .f32⟩
  | 41 => ⟨S256x1, .f32⟩
  | 42 => ⟨S256x50000, .f32⟩
  | 43 => ⟨S256x50000, .f32⟩
  | 44 => ⟨S1x50000, .f32⟩
  | 45 => ⟨S_, .f32⟩
  | 46 => ⟨S1x50000, .f32⟩
  | 47 => ⟨S1x50000, .f32⟩
  | 48 => ⟨S256x50000, .f32⟩
  | 49 => ⟨S256x50000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call0_cst : Ref sig .tc := ⟨.hbm, 102, rfl⟩
abbrev main_call0_v0 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_cst_15 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_16 : Ref sig .tc := ⟨.hbm, 125, rfl⟩
abbrev main_v83 : Ref sig .tc := ⟨.hbm, 126, rfl⟩
abbrev main_v84 : Ref sig .tc := ⟨.hbm, 127, rfl⟩
abbrev main_c_17 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call1_cst : Ref sig .tc := ⟨.hbm, 138, rfl⟩
abbrev main_call1_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call2_cst : Ref sig .tc := ⟨.hbm, 149, rfl⟩
abbrev main_call2_v0 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_18 : Ref sig .tc := ⟨.hbm, 158, rfl⟩
abbrev main_v110 : Ref sig .tc := ⟨.hbm, 159, rfl⟩
abbrev main_v111 : Ref sig .tc := ⟨.hbm, 160, rfl⟩
abbrev main_c_19 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_20 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_21 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S256 : S_.BroadcastsInDim S256 (![] : Fin 0 → Fin S256.rank)
  bcast_S256_S256x1_0 : S256.BroadcastsInDim S256x1 (![0] : Fin 1 → Fin S256x1.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  transposes_S50000x64_S64x50000_1_0 : S50000x64.Transposes [1, 0] S64x50000
  bcast_S_S256x1 : S_.BroadcastsInDim S256x1 (![] : Fin 0 → Fin S256x1.rank)
  bcast_S256x1_S256x50000_0_1 : S256x1.BroadcastsInDim S256x50000 (![0, 1] : Fin 2 → Fin S256x50000.rank)
  transposes_S50000x1_S1x50000_1_0 : S50000x1.Transposes [1, 0] S1x50000
  bcast_S_S1x50000 : S_.BroadcastsInDim S1x50000 (![] : Fin 0 → Fin S1x50000.rank)
  bcast_S1x50000_S256x50000_0_1 : S1x50000.BroadcastsInDim S256x50000 (![0, 1] : Fin 2 → Fin S256x50000.rank)
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S10x64_S50000x1_S50000x64_1_0_n_n_0_1_164_wf : GatherDims.WF S10x64 S50000x1 S50000x64 [1] [0] [] [0] [] 1 ![1, 64]
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  gather_S100000x64_S256x1_S256x64_1_0_n_n_0_1_164_wf : GatherDims.WF S100000x64 S256x1 S256x64 [1] [0] [] [0] [] 1 ![1, 64]
  dot_S256x64_S64x64_S256x64_1_0_0_1_n_n_wf : DotDims.WF S256x64 S64x64 S256x64 [1] [0] [0] [1] [] []
  dot_S50000x64_S64x64_S50000x64_1_0_0_1_n_n_wf : DotDims.WF S50000x64 S64x64 S50000x64 [1] [0] [0] [1] [] []
  dot_S256x64_S64x50000_S256x50000_1_0_0_1_n_n_wf : DotDims.WF S256x64 S64x50000 S256x50000 [1] [0] [0] [1] [] []
  gather_S100000x1_S256x1_S256x1_1_0_n_n_0_1_11_wf : GatherDims.WF S100000x1 S256x1 S256x1 [1] [0] [] [0] [] 1 ![1, 1]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S256x64_S64x50000_S256x50000_1_0_0_1_n_n : DotDims S256x64 S64x50000 S256x50000 where
  lhsContracting := [1]
  rhsContracting := [0]
  lhsNonContracting := [0]
  rhsNonContracting := [1]
  lhsBatch := []
  rhsBatch := []
  wf := dot_S256x64_S64x50000_S256x50000_1_0_0_1_n_n_wf
def gather_S100000x1_S256x1_S256x1_1_0_n_n_0_1_11 : GatherDims S100000x1 S256x1 S256x1 where
  offsetDims := [1]
  collapsedSliceDims := [0]
  operandBatchingDims := []
  startIndicesBatchingDims := []
  startIndexMap := [0]
  indexVectorDim := 1
  sliceSizes := ![1, 1]
  wf := gather_S100000x1_S256x1_S256x1_1_0_n_n_0_1_11_wf

class Facts : Prop extends Facts₀ where

variable [Facts]
-- ==== Proof.Spec.lean ====
/-
  The mathematics both programs compute, one item row at a time, on the extended reals.

  An item `j` has a propagated embedding row `x` and a popularity-bin embedding row `p` (64 entries each).
  * the gate input is the row `x` followed by the row `p` (128 entries);
  * `hid`: a dense layer 128 → 64 with bias, then `max · 0`;
  * `pre`: a dense layer 64 → 1 with bias; the gate is its logistic `z = 1 / (1 + e^(-pre))`;
  * `mix`: the fused row `(1 - z) · x + z · p`;
  * `emb`: a two-layer tower 64 → 64 → 64 (bias, `max · 0`, bias) of the fused row: the item's vector;
  * `score`: the inner product of a user's vector `u` with the item's vector, plus the user's bias, plus the item's bias.
  Every entry of the result depends on ONE item row only, so the function does not see how the items are tiled.
  The float literals `0` and `1` stay the words the programs spell; only `one_word` reads the second.
-/
import Idealize.ShloMosaic.PureOps.Ideal
import Idealize.ShloMosaic.Lib.ValueIdx

noncomputable section

namespace Cert.Score

open Idealize.ShloMosaic Idealize.ShloMosaic.ValueIdx

/-- The word of `+0.0` as an extended real. -/
abbrev zeroW : EReal := Ideal.ofBits .f32 0x00000000#32
/-- The word of `1.0` as an extended real. -/
abbrev oneW : EReal := Ideal.ofBits .f32 0x3F800000#32

/-- The word `0x3F800000` denotes the real number one. -/
theorem one_word : Ideal.ofBits .f32 0x3F800000#32 = 1 := by
  simp [Ideal.ofBits, Ideal.ieee, -EReal.coe_mul]; norm_num

/-- The logistic function written out with the word of one: `1 / (1 + e^(-g))`. -/
theorem logistic_spelled (g : EReal) : Ideal.div oneW (oneW + Ideal.exp (-g)) = Ideal.logistic g := by
  have h : oneW = 1 := one_word
  unfold Ideal.logistic; rw [h]

/-- The gate's input row: the item's row, then the popularity row. -/
def cat (x p : Fin 64 → EReal) (k : Fin 128) : EReal :=
  if h : k.val < 64 then x ⟨k.val, h⟩ else p ⟨k.val - 64, by have := k.isLt; omega⟩

section Gate
variable (W1 : (⟨2, ![128, 64]⟩ : Shape).Idx → EReal) (b1 : (⟨1, ![64]⟩ : Shape).Idx → EReal)
  (W2 : (⟨2, ![64, 1]⟩ : Shape).Idx → EReal) (b2 : (⟨1, ![1]⟩ : Shape).Idx → EReal)

/-- The gate's hidden layer at unit `l`. -/
def hid (x p : Fin 64 → EReal) (l : Fin 64) : EReal :=
  max ((∑ k : Fin 128, cat x p k * W1 (ix2 k l)) + b1 (ix1 l)) zeroW

/-- The gate before its logistic. -/
def pre (x p : Fin 64 → EReal) : EReal :=
  (∑ l : Fin 64, hid W1 b1 x p l * W2 (ix2 l (0 : Fin 1))) + b2 (ix1 (0 : Fin 1))

/-- The gate `z` of an item. -/
def gate (x p : Fin 64 → EReal) : EReal := Ideal.logistic (pre W1 b1 W2 b2 x p)
end Gate

/-- The fused row `(1 - z) · x + z · p`. -/
def mix (z : EReal) (x p : Fin 64 → EReal) (q : Fin 64) : EReal := (oneW - z) * x q + z * p q

section Tower
variable (V1 : (⟨2, ![64, 64]⟩ : Shape).Idx → EReal) (c1 : (⟨1, ![64]⟩ : Shape).Idx → EReal)
  (V2 : (⟨2, ![64, 64]⟩ : Shape).Idx → EReal) (c2 : (⟨1, ![64]⟩ : Shape).Idx → EReal)

/-- The item tower's hidden layer at unit `l`. -/
def hid2 (y : Fin 64 → EReal) (l : Fin 64) : EReal :=
  max ((∑ q : Fin 64, y q * V1 (ix2 q l)) + c1 (ix1 l)) zeroW

/-- The item tower's output at coordinate `k`. -/
def emb (y : Fin 64 → EReal) (k : Fin 64) : EReal :=
  (∑ l : Fin 64, hid2 V1 c1 y l * V2 (ix2 l k)) + c2 (ix1 k)
end Tower

section Score
variable (W1 : (⟨2, ![128, 64]⟩ : Shape).Idx → EReal) (b1 : (⟨1, ![64]⟩ : Shape).Idx → EReal)
  (W2 : (⟨2, ![64, 1]⟩ : Shape).Idx → EReal) (b2 : (⟨1, ![1]⟩ : Shape).Idx → EReal)
  (V1 : (⟨2, ![64, 64]⟩ : Shape).Idx → EReal) (c1 : (⟨1, ![64]⟩ : Shape).Idx → EReal)
  (V2 : (⟨2, ![64, 64]⟩ : Shape).Idx → EReal) (c2 : (⟨1, ![64]⟩ : Shape).Idx → EReal)

/-- The item's vector: the tower of the fused row. -/
def itemVec (x p : Fin 64 → EReal) (k : Fin 64) : EReal :=
  emb V1 c1 V2 c2 (mix (gate W1 b1 W2 b2 x p) x p) k

/-- One score: a user's vector against an item's vector, plus the two biases, added in this order. -/
def score (u : Fin 64 → EReal) (ub ib : EReal) (x p : Fin 64 → EReal) : EReal :=
  (∑ k : Fin 64, u k * itemVec W1 b1 W2 b2 V1 c1 V2 c2 x p k) + ub + ib
end Score

end Cert.Score

end
-- ==== Proof.KLayout.lean ====
/-
  Layout operations and block products of the kernel body, read at an entry (at the exact instance, where a float is
  an extended real and a change of format is the identity).

  * a bias vector [64] cast to one row [1, 64] and repeated down the rows: entry (r, l) is the vector's entry l;
  * a column [n, 1] repeated across the lanes: entry (r, l) is the column's entry r; a row [1, n] repeated down:
    entry (b, r) is the row's entry r; a single number [1] cast to [1, 1] and repeated down a column;
  * two [n, 64] blocks laid side by side along the lanes: entry (r, k) is the first block's (r, k) for k < 64 and
    the second block's (r, k - 64) otherwise — the row `cat` of the two rows;
  * a block product into a zero accumulator: entry (r, l) is the sum over the contracted coordinate k of
    left (r, k) · right (k, l); for the product against a transposed right operand, left (b, k) · right (r, k).
-/
import proofs.«158885_j34694745817427_1_alg».proof.Proof.Gen.KernelIdeal
import proofs.«158885_j34694745817427_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KLayout

open Cert.KernelIdeal Idealize.ShloMosaic Idealize.ShloMosaic.ValueIdx Cert.Score

/-! ## Bias rows and repeated columns -/

/-- A [64] vector as one row, repeated down `n` rows. -/
theorem bias_row {n : ℕ} (v : (⟨1, ![64]⟩ : Shape).Idx → EReal) (h1 : (⟨1, ![64]⟩ : Shape).ShapeCasts ⟨2, ![1, 64]⟩)
    (h2 : (⟨2, ![1, 64]⟩ : Shape).Broadcasts ⟨2, ![n, 64]⟩) (r : Fin n) (l : Fin 64) :
    broadcastTo ⟨2, ![n, 64]⟩ (shapeCast ⟨2, ![1, 64]⟩ v h1) h2 (ix2 r l) = v (ix1 l) := by
  rw [broadcastTo_1b_ab_apply, shapeCast_a_1a_apply]

/-- A column [n, 1] repeated across `w` lanes (`w ≠ 1`). -/
theorem col_lanes {n w : ℕ} (hn : n ≠ 1) (v : (⟨2, ![n, 1]⟩ : Shape).Idx → EReal)
    (h : (⟨2, ![n, 1]⟩ : Shape).Broadcasts ⟨2, ![n, w]⟩) (r : Fin n) (l : Fin w) :
    broadcastTo ⟨2, ![n, w]⟩ v h (ix2 r l) = v (ix2 r (0 : Fin 1)) := by
  refine broadcastTo_apply v h (ix2 r l) (ix2 r (0 : Fin 1)) fun ax => ?_
  match ax with
  | ⟨0, _⟩ =>
    show r.val = if n = 1 then 0 else r.val
    rw [if_neg hn]
  | ⟨1, _⟩ =>
    show 0 = if (1 : ℕ) = 1 then 0 else l.val
    rw [if_pos rfl]

/-- A single number [1] as a [1, 1] block, repeated down a column of `n` rows. -/
theorem one_col {n : ℕ} (v : (⟨1, ![1]⟩ : Shape).Idx → EReal) (h1 : (⟨1, ![1]⟩ : Shape).ShapeCasts ⟨2, ![1, 1]⟩)
    (h2 : (⟨2, ![1, 1]⟩ : Shape).Broadcasts ⟨2, ![n, 1]⟩) (r : Fin n) :
    broadcastTo ⟨2, ![n, 1]⟩ (shapeCast ⟨2, ![1, 1]⟩ v h1) h2 (ix2 r (0 : Fin 1)) = v (ix1 (0 : Fin 1)) := by
  rw [broadcastTo_1b_ab_apply, shapeCast_a_1a_apply]

/-! ## Two blocks side by side -/

/-- Two [n, 64] blocks joined along the lanes, at (r, k): the row `cat` of their two rows. -/
theorem side_by_side {n : ℕ} (a p : (⟨2, ![n, 64]⟩ : Shape).Idx → EReal)
    (h : Shape.Concatenates [(⟨2, ![n, 64]⟩ : Shape), ⟨2, ![n, 64]⟩] ⟨2, ![n, 128]⟩ 1) (r : Fin n) (k : Fin 128) :
    concatenate ⟨2, ![n, 128]⟩ 1 [⟨(⟨2, ![n, 64]⟩ : Shape), a⟩, ⟨(⟨2, ![n, 64]⟩ : Shape), p⟩] h (ix2 r k)
      = cat (fun q => a (ix2 r q)) (fun q => p (ix2 r q)) k := by
  unfold cat
  by_cases hk : k.val < 64
  · rw [dif_pos hk]
    refine concatenate_pair_apply_left (1 : Fin 2) a p h (ix2 r k) rfl (ix2 r ⟨k.val, hk⟩) fun b => ?_
    match b with
    | ⟨0, _⟩ => rfl
    | ⟨1, _⟩ => rfl
  · rw [dif_neg hk]
    refine concatenate_pair_apply_right (1 : Fin 2) a p h (ix2 r k) rfl rfl
      (ix2 r ⟨k.val - 64, by have := k.isLt; omega⟩) (fun b hb => ?_) ?_
    · match b with
      | ⟨0, _⟩ => rfl
      | ⟨1, _⟩ => exact absurd rfl hb
    · show (k.val - 64) + 64 = k.val
      omega

/-! ## Block products into a zero accumulator, as sums over the contracted coordinate -/

/-- The left operand's free coordinate is the result's row coordinate. -/
theorem prod_gate1_lfree (i : S3584x64.Idx) (q : dot_S3584x128_S128x64_S3584x64_1_0_0_1_n_n.contr.Idx) : (dot_S3584x128_S128x64_S3584x64_1_0_0_1_n_n.lhsIdx i q 0).val = (i 0).val := by
  unfold DotDims.lhsIdx
  rw [dif_neg (show ¬(0 : Fin S3584x128.rank) ∈ dot_S3584x128_S128x64_S3584x64_1_0_0_1_n_n.lhsBatch by decide),
    dif_pos (show (0 : Fin S3584x128.rank) ∈ dot_S3584x128_S128x64_S3584x64_1_0_0_1_n_n.lhsNonContracting by decide)]
  rfl
/-- The right operand's free coordinate is the result's column coordinate. -/
theorem prod_gate1_rfree (i : S3584x64.Idx) (q : dot_S3584x128_S128x64_S3584x64_1_0_0_1_n_n.contr.Idx) : (dot_S3584x128_S128x64_S3584x64_1_0_0_1_n_n.rhsIdx i q 1).val = (i 1).val := by
  unfold DotDims.rhsIdx
  rw [dif_neg (show ¬(1 : Fin S128x64.rank) ∈ dot_S3584x128_S128x64_S3584x64_1_0_0_1_n_n.rhsBatch by decide),
    dif_pos (show (1 : Fin S128x64.rank) ∈ dot_S3584x128_S128x64_S3584x64_1_0_0_1_n_n.rhsNonContracting by decide)]
  rfl
theorem prod_gate1 {φ₁ φ₂ : FTy} (lhs : FVec Ideal S3584x128 φ₁) (rhs : FVec Ideal S128x64 φ₂) (r : Fin 3584) (l : Fin 64) :
    matmul dot_S3584x128_S128x64_S3584x64_1_0_0_1_n_n none lhs rhs (constant S3584x64 .f32 0x00000000#32) (ix2 r l)
      = ∑ k : Fin 128, lhs (ix2 r k) * rhs (ix2 k l) := by
  refine (Ideal.matmul_constant_zero_apply dot_S3584x128_S128x64_S3584x64_1_0_0_1_n_n none lhs rhs (ix2 r l)).trans ?_
  rw [← Equiv.sum_comp (contrEquiv1 dot_S3584x128_S128x64_S3584x64_1_0_0_1_n_n 128 rfl rfl).symm]
  refine Finset.sum_congr rfl fun k _ => ?_
  have hk := contrEquiv1_symm_val dot_S3584x128_S128x64_S3584x64_1_0_0_1_n_n 128 rfl rfl k
  have el : dot_S3584x128_S128x64_S3584x64_1_0_0_1_n_n.lhsIdx (ix2 r l) ((contrEquiv1 dot_S3584x128_S128x64_S3584x64_1_0_0_1_n_n 128 rfl rfl).symm k) = ix2 r k :=
    funext fun a => Fin.ext (by
      match a with
      | ⟨0, _⟩ => exact prod_gate1_lfree _ _
      | ⟨1, _⟩ => exact (dot_S3584x128_S128x64_S3584x64_1_0_0_1_n_n.lhsIdx_val_of_single rfl _ _).trans hk)
  have er : dot_S3584x128_S128x64_S3584x64_1_0_0_1_n_n.rhsIdx (ix2 r l) ((contrEquiv1 dot_S3584x128_S128x64_S3584x64_1_0_0_1_n_n 128 rfl rfl).symm k) = ix2 k l :=
    funext fun a => Fin.ext (by
      match a with
      | ⟨0, _⟩ => exact (dot_S3584x128_S128x64_S3584x64_1_0_0_1_n_n.rhsIdx_val_of_single rfl _ _).trans hk
      | ⟨1, _⟩ => exact prod_gate1_rfree _ _)
  rw [el, er]

/-- The left operand's free coordinate is the result's row coordinate. -/
theorem prod_gate2_lfree (i : S3584x1.Idx) (q : dot_S3584x64_S64x1_S3584x1_1_0_0_1_n_n.contr.Idx) : (dot_S3584x64_S64x1_S3584x1_1_0_0_1_n_n.lhsIdx i q 0).val = (i 0).val := by
  unfold DotDims.lhsIdx
  rw [dif_neg (show ¬(0 : Fin S3584x64.rank) ∈ dot_S3584x64_S64x1_S3584x1_1_0_0_1_n_n.lhsBatch by decide),
    dif_pos (show (0 : Fin S3584x64.rank) ∈ dot_S3584x64_S64x1_S3584x1_1_0_0_1_n_n.lhsNonContracting by decide)]
  rfl
/-- The right operand's free coordinate is the result's column coordinate. -/
theorem prod_gate2_rfree (i : S3584x1.Idx) (q : dot_S3584x64_S64x1_S3584x1_1_0_0_1_n_n.contr.Idx) : (dot_S3584x64_S64x1_S3584x1_1_0_0_1_n_n.rhsIdx i q 1).val = (i 1).val := by
  unfold DotDims.rhsIdx
  rw [dif_neg (show ¬(1 : Fin S64x1.rank) ∈ dot_S3584x64_S64x1_S3584x1_1_0_0_1_n_n.rhsBatch by decide),
    dif_pos (show (1 : Fin S64x1.rank) ∈ dot_S3584x64_S64x1_S3584x1_1_0_0_1_n_n.rhsNonContracting by decide)]
  rfl
theorem prod_gate2 {φ₁ φ₂ : FTy} (lhs : FVec Ideal S3584x64 φ₁) (rhs : FVec Ideal S64x1 φ₂) (r : Fin 3584) (l : Fin 1) :
    matmul dot_S3584x64_S64x1_S3584x1_1_0_0_1_n_n none lhs rhs (constant S3584x1 .f32 0x00000000#32) (ix2 r l)
      = ∑ k : Fin 64, lhs (ix2 r k) * rhs (ix2 k l) := by
  refine (Ideal.matmul_constant_zero_apply dot_S3584x64_S64x1_S3584x1_1_0_0_1_n_n none lhs rhs (ix2 r l)).trans ?_
  rw [← Equiv.sum_comp (contrEquiv1 dot_S3584x64_S64x1_S3584x1_1_0_0_1_n_n 64 rfl rfl).symm]
  refine Finset.sum_congr rfl fun k _ => ?_
  have hk := contrEquiv1_symm_val dot_S3584x64_S64x1_S3584x1_1_0_0_1_n_n 64 rfl rfl k
  have el : dot_S3584x64_S64x1_S3584x1_1_0_0_1_n_n.lhsIdx (ix2 r l) ((contrEquiv1 dot_S3584x64_S64x1_S3584x1_1_0_0_1_n_n 64 rfl rfl).symm k) = ix2 r k :=
    funext fun a => Fin.ext (by
      match a with
      | ⟨0, _⟩ => exact prod_gate2_lfree _ _
      | ⟨1, _⟩ => exact (dot_S3584x64_S64x1_S3584x1_1_0_0_1_n_n.lhsIdx_val_of_single rfl _ _).trans hk)
  have er : dot_S3584x64_S64x1_S3584x1_1_0_0_1_n_n.rhsIdx (ix2 r l) ((contrEquiv1 dot_S3584x64_S64x1_S3584x1_1_0_0_1_n_n 64 rfl rfl).symm k) = ix2 k l :=
    funext fun a => Fin.ext (by
      match a with
      | ⟨0, _⟩ => exact (dot_S3584x64_S64x1_S3584x1_1_0_0_1_n_n.rhsIdx_val_of_single rfl _ _).trans hk
      | ⟨1, _⟩ => exact prod_gate2_rfree _ _)
  rw [el, er]

/-- The left operand's free coordinate is the result's row coordinate. -/
theorem prod_tower_lfree (i : S3584x64.Idx) (q : dot_S3584x64_S64x64_S3584x64_1_0_0_1_n_n.contr.Idx) : (dot_S3584x64_S64x64_S3584x64_1_0_0_1_n_n.lhsIdx i q 0).val = (i 0).val := by
  unfold DotDims.lhsIdx
  rw [dif_neg (show ¬(0 : Fin S3584x64.rank) ∈ dot_S3584x64_S64x64_S3584x64_1_0_0_1_n_n.lhsBatch by decide),
    dif_pos (show (0 : Fin S3584x64.rank) ∈ dot_S3584x64_S64x64_S3584x64_1_0_0_1_n_n.lhsNonContracting by decide)]
  rfl
/-- The right operand's free coordinate is the result's column coordinate. -/
theorem prod_tower_rfree (i : S3584x64.Idx) (q : dot_S3584x64_S64x64_S3584x64_1_0_0_1_n_n.contr.Idx) : (dot_S3584x64_S64x64_S3584x64_1_0_0_1_n_n.rhsIdx i q 1).val = (i 1).val := by
  unfold DotDims.rhsIdx
  rw [dif_neg (show ¬(1 : Fin S64x64.rank) ∈ dot_S3584x64_S64x64_S3584x64_1_0_0_1_n_n.rhsBatch by decide),
    dif_pos (show (1 : Fin S64x64.rank) ∈ dot_S3584x64_S64x64_S3584x64_1_0_0_1_n_n.rhsNonContracting by decide)]
  rfl
theorem prod_tower {φ₁ φ₂ : FTy} (lhs : FVec Ideal S3584x64 φ₁) (rhs : FVec Ideal S64x64 φ₂) (r : Fin 3584) (l : Fin 64) :
    matmul dot_S3584x64_S64x64_S3584x64_1_0_0_1_n_n none lhs rhs (constant S3584x64 .f32 0x00000000#32) (ix2 r l)
      = ∑ k : Fin 64, lhs (ix2 r k) * rhs (ix2 k l) := by
  refine (Ideal.matmul_constant_zero_apply dot_S3584x64_S64x64_S3584x64_1_0_0_1_n_n none lhs rhs (ix2 r l)).trans ?_
  rw [← Equiv.sum_comp (contrEquiv1 dot_S3584x64_S64x64_S3584x64_1_0_0_1_n_n 64 rfl rfl).symm]
  refine Finset.sum_congr rfl fun k _ => ?_
  have hk := contrEquiv1_symm_val dot_S3584x64_S64x64_S3584x64_1_0_0_1_n_n 64 rfl rfl k
  have el : dot_S3584x64_S64x64_S3584x64_1_0_0_1_n_n.lhsIdx (ix2 r l) ((contrEquiv1 dot_S3584x64_S64x64_S3584x64_1_0_0_1_n_n 64 rfl rfl).symm k) = ix2 r k :=
    funext fun a => Fin.ext (by
      match a with
      | ⟨0, _⟩ => exact prod_tower_lfree _ _
      | ⟨1, _⟩ => exact (dot_S3584x64_S64x64_S3584x64_1_0_0_1_n_n.lhsIdx_val_of_single rfl _ _).trans hk)
  have er : dot_S3584x64_S64x64_S3584x64_1_0_0_1_n_n.rhsIdx (ix2 r l) ((contrEquiv1 dot_S3584x64_S64x64_S3584x64_1_0_0_1_n_n 64 rfl rfl).symm k) = ix2 k l :=
    funext fun a => Fin.ext (by
      match a with
      | ⟨0, _⟩ => exact (dot_S3584x64_S64x64_S3584x64_1_0_0_1_n_n.rhsIdx_val_of_single rfl _ _).trans hk
      | ⟨1, _⟩ => exact prod_tower_rfree _ _)
  rw [el, er]

/-- The left operand's free coordinate is the result's row coordinate. -/
theorem prod_score_lfree (i : S256x3584.Idx) (q : dot_S256x64_S3584x64_S256x3584_1_1_0_0_n_n.contr.Idx) : (dot_S256x64_S3584x64_S256x3584_1_1_0_0_n_n.lhsIdx i q 0).val = (i 0).val := by
  unfold DotDims.lhsIdx
  rw [dif_neg (show ¬(0 : Fin S256x64.rank) ∈ dot_S256x64_S3584x64_S256x3584_1_1_0_0_n_n.lhsBatch by decide),
    dif_pos (show (0 : Fin S256x64.rank) ∈ dot_S256x64_S3584x64_S256x3584_1_1_0_0_n_n.lhsNonContracting by decide)]
  rfl
/-- The right operand's free coordinate is the result's column coordinate. -/
theorem prod_score_rfree (i : S256x3584.Idx) (q : dot_S256x64_S3584x64_S256x3584_1_1_0_0_n_n.contr.Idx) : (dot_S256x64_S3584x64_S256x3584_1_1_0_0_n_n.rhsIdx i q 0).val = (i 1).val := by
  unfold DotDims.rhsIdx
  rw [dif_neg (show ¬(0 : Fin S3584x64.rank) ∈ dot_S256x64_S3584x64_S256x3584_1_1_0_0_n_n.rhsBatch by decide),
    dif_pos (show (0 : Fin S3584x64.rank) ∈ dot_S256x64_S3584x64_S256x3584_1_1_0_0_n_n.rhsNonContracting by decide)]
  rfl
theorem prod_score {φ₁ φ₂ : FTy} (lhs : FVec Ideal S256x64 φ₁) (rhs : FVec Ideal S3584x64 φ₂) (r : Fin 256) (l : Fin 3584) :
    matmul dot_S256x64_S3584x64_S256x3584_1_1_0_0_n_n none lhs rhs (constant S256x3584 .f32 0x00000000#32) (ix2 r l)
      = ∑ k : Fin 64, lhs (ix2 r k) * rhs (ix2 l k) := by
  refine (Ideal.matmul_constant_zero_apply dot_S256x64_S3584x64_S256x3584_1_1_0_0_n_n none lhs rhs (ix2 r l)).trans ?_
  rw [← Equiv.sum_comp (contrEquiv1 dot_S256x64_S3584x64_S256x3584_1_1_0_0_n_n 64 rfl rfl).symm]
  refine Finset.sum_congr rfl fun k _ => ?_
  have hk := contrEquiv1_symm_val dot_S256x64_S3584x64_S256x3584_1_1_0_0_n_n 64 rfl rfl k
  have el : dot_S256x64_S3584x64_S256x3584_1_1_0_0_n_n.lhsIdx (ix2 r l) ((contrEquiv1 dot_S256x64_S3584x64_S256x3584_1_1_0_0_n_n 64 rfl rfl).symm k) = ix2 r k :=
    funext fun a => Fin.ext (by
      match a with
      | ⟨0, _⟩ => exact prod_score_lfree _ _
      | ⟨1, _⟩ => exact (dot_S256x64_S3584x64_S256x3584_1_1_0_0_n_n.lhsIdx_val_of_single rfl _ _).trans hk)
  have er : dot_S256x64_S3584x64_S256x3584_1_1_0_0_n_n.rhsIdx (ix2 r l) ((contrEquiv1 dot_S256x64_S3584x64_S256x3584_1_1_0_0_n_n 64 rfl rfl).symm k) = ix2 l k :=
    funext fun a => Fin.ext (by
      match a with
      | ⟨0, _⟩ => exact prod_score_rfree _ _
      | ⟨1, _⟩ => exact (dot_S256x64_S3584x64_S256x3584_1_1_0_0_n_n.rhsIdx_val_of_single rfl _ _).trans hk)
  rw [el, er]

end Cert.KernelIdeal.KLayout

end
-- ==== Proof.Payload.lean ====
/-
  The kernel body's arithmetic at one entry of the output block.

  The body reads a tile of item rows `x0`, the matching popularity rows `x1`, the tile of the item-bias row `x2`, the
  users' vectors `x3` and biases `x4`, and the weights. Its first part ends at the item tower's hidden layer before the
  `max`: entry (r, l) is the fused row of item r through the first tower layer. Its second part takes the `max` with zero,
  applies the second tower layer, multiplies the users' vectors against the item vectors and adds the two biases.
  Entry (b, r) of the result is `score` of user b's vector and bias against item r's two rows and bias: nothing of
  any other row of the tile enters. The changes of float format in the body are the identity on extended reals.
-/
import proofs.«158885_j34694745817427_1_alg».proof.Proof.Gen.KernelIdeal.Skeleton
import proofs.«158885_j34694745817427_1_alg».proof.Proof.KLayout

noncomputable section

namespace Cert.KernelIdeal.Payload

open Cert.KernelIdeal Cert.KernelIdeal.Gen Cert.KernelIdeal.KLayout Idealize.ShloMosaic Idealize.ShloMosaic.ValueIdx Cert.Score

/-- The logistic of a vector is entrywise. -/
theorem logistic_at {s : Shape} {φ : FTy} (v : FVec Ideal s φ) (i : s.Idx) : logistic v i = Ideal.logistic (v i) := rfl

/-- The body's first part at (r, l): the fused row of item r through the tower's first layer, before the `max`. -/
theorem fused_hidden (x0 x1 : Vec Ideal S3584x64 .f32) (x5 : Vec Ideal S128x64 .f32) (x6 : Vec Ideal S64 .f32)
    (x7 : Vec Ideal S64x1 .f32) (x8 : Vec Ideal S1 .f32) (x9 : Vec Ideal S64x64 .f32) (x10 : Vec Ideal S64 .f32)
    (r : Fin 3584) (l : Fin 64) :
    k0_pay2 x0 x1 x5 x6 x7 x8 x9 x10 (ix2 r l)
      = (∑ q : Fin 64, mix (gate x5 x6 x7 x8 (fun k => x0 (ix2 r k)) (fun k => x1 (ix2 r k)))
            (fun k => x0 (ix2 r k)) (fun k => x1 (ix2 r k)) q * x9 (ix2 q l)) + x10 (ix1 l) := by
  unfold k0_pay2
  simp only [addf_apply, mulf_apply, subf_apply, maximumf_apply, truncf_apply, broadcast_apply, shapeCast_self, logistic_at,
    prod_gate1, prod_gate2, prod_tower, bias_row, col_lanes (n := 3584) (w := 64) (by decide), one_col, side_by_side]
  rfl

/-- The whole body at (b, r): the score of user b against item r of the tile. -/
theorem payload_entry (x0 x1 : Vec Ideal S3584x64 .f32) (x2 : Vec Ideal S1x3584 .f32) (x3 : Vec Ideal S256x64 .f32)
    (x4 : Vec Ideal S256x1 .f32) (x5 : Vec Ideal S128x64 .f32) (x6 : Vec Ideal S64 .f32)
    (x7 : Vec Ideal S64x1 .f32) (x8 : Vec Ideal S1 .f32) (x9 : Vec Ideal S64x64 .f32) (x10 : Vec Ideal S64 .f32)
    (x11 : Vec Ideal S64x64 .f32) (x12 : Vec Ideal S64 .f32) (b : Fin 256) (r : Fin 3584) :
    k0_pay1 (k0_pay2 x0 x1 x5 x6 x7 x8 x9 x10) (k0_pay3 (F := Ideal)) x11 x12 x3 x4 x2 (ix2 b r)
      = score x5 x6 x7 x8 x9 x10 x11 x12 (fun k => x3 (ix2 b k)) (x4 (ix2 b (0 : Fin 1))) (x2 (ix2 (0 : Fin 1) r))
          (fun k => x0 (ix2 r k)) (fun k => x1 (ix2 r k)) := by
  unfold k0_pay1 k0_pay3
  simp only [addf_apply, mulf_apply, maximumf_apply, truncf_apply, broadcast_apply, shapeCast_self,
    prod_tower, prod_score, bias_row, col_lanes (n := 256) (w := 3584) (by decide), broadcastTo_1b_ab_apply, shapeCast_a_1a_apply, fused_hidden]
  rfl

end Cert.KernelIdeal.Payload

end
-- ==== Proof.Blocks.lean ====
/-
  From the body's blocks to the program's result.

  The region runs the body at fourteen grid points. Point `t` reads rows `3584 t … 3584 t + 3583` of the padded item
  and popularity arrays and the same columns of the padded item-bias row, together with the whole of every other
  operand, and writes columns `3584 t … 3584 t + 3583` of the [256, 50176] output. By the body's arithmetic
  (`payload_entry`) entry (b, r) of what it writes is the score of user b against item `3584 t + r`; that is block `t`
  of ONE function of the whole arrays, `padded`. The fourteen blocks tile the output, so the region leaves `padded`
  there; the one host operation after the region cuts off the 176 padding columns. The result at (b, j), j < 50000, is
  therefore the score of user b against row j of the padded arrays.
-/
import proofs.«158885_j34694745817427_1_alg».proof.Proof.Gen.KernelIdeal.Frame
import proofs.«158885_j34694745817427_1_alg».proof.Proof.Payload
import Idealize.ShloMosaic.Lib.Pipeline.Value
import Idealize.ShloMosaic.Lib.ValueLayout

set_option maxRecDepth 16384

noncomputable section

namespace Cert.KernelIdeal.Blocks

open Cert.KernelIdeal Cert.KernelIdeal.Gen Cert.KernelIdeal.Payload Idealize.ShloMosaic Idealize.ShloMosaic.TcCoe
open Idealize.ShloMosaic.ValueIdx Idealize.SL.Sem Cert.Score
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The score of user `b` against item `j` of the padded item list, from the whole arrays the region finds. -/
def entry (it pv : S50176x64.Idx → EReal) (ibr : S1x50176.Idx → EReal) (U : S256x64.Idx → EReal) (ubc : S256x1.Idx → EReal)
    (W1 : S128x64.Idx → EReal) (b1 : S64.Idx → EReal) (W2 : S64x1.Idx → EReal) (b2 : S1.Idx → EReal)
    (V1 : S64x64.Idx → EReal) (c1 : S64.Idx → EReal) (V2 : S64x64.Idx → EReal) (c2 : S64.Idx → EReal)
    (b : Fin 256) (j : Fin 50176) : EReal :=
  score W1 b1 W2 b2 V1 c1 V2 c2 (fun k => U (ix2 b k)) (ubc (ix2 b (0 : Fin 1))) (ibr (ix2 (0 : Fin 1) j))
    (fun k => it (ix2 j k)) (fun k => pv (ix2 j k))

/-- The whole padded output: entry (b, j) is `entry … b j`. -/
def padded (it pv : S50176x64.Idx → EReal) (ibr : S1x50176.Idx → EReal) (U : S256x64.Idx → EReal) (ubc : S256x1.Idx → EReal)
    (W1 : S128x64.Idx → EReal) (b1 : S64.Idx → EReal) (W2 : S64x1.Idx → EReal) (b2 : S1.Idx → EReal)
    (V1 : S64x64.Idx → EReal) (c1 : S64.Idx → EReal) (V2 : S64x64.Idx → EReal) (c2 : S64.Idx → EReal) :
    S256x50176.Idx → EReal :=
  fun i => entry it pv ibr U ubc W1 b1 W2 b2 V1 c1 V2 c2 ⟨(i 0).val, (i 0).isLt⟩ ⟨(i 1).val, (i 1).isLt⟩

/-- `score` respects equality of each of its arguments. -/
theorem score_congr {W1 W1' : (⟨2, ![128, 64]⟩ : Shape).Idx → EReal} {b1 b1' : (⟨1, ![64]⟩ : Shape).Idx → EReal}
    {W2 W2' : (⟨2, ![64, 1]⟩ : Shape).Idx → EReal} {b2 b2' : (⟨1, ![1]⟩ : Shape).Idx → EReal}
    {V1 V1' : (⟨2, ![64, 64]⟩ : Shape).Idx → EReal} {c1 c1' : (⟨1, ![64]⟩ : Shape).Idx → EReal}
    {V2 V2' : (⟨2, ![64, 64]⟩ : Shape).Idx → EReal} {c2 c2' : (⟨1, ![64]⟩ : Shape).Idx → EReal}
    {u u' : Fin 64 → EReal} {ub ub' ib ib' : EReal} {x x' p p' : Fin 64 → EReal}
    (h1 : W1 = W1') (h2 : b1 = b1') (h3 : W2 = W2') (h4 : b2 = b2') (h5 : V1 = V1') (h6 : c1 = c1') (h7 : V2 = V2')
    (h8 : c2 = c2') (h9 : u = u') (h10 : ub = ub') (h11 : ib = ib') (h12 : x = x') (h13 : p = p') :
    score W1 b1 W2 b2 V1 c1 V2 c2 u ub ib x p = score W1' b1' W2' b2' V1' c1' V2' c2' u' ub' ib' x' p' := by
  subst h1 h2 h3 h4 h5 h6 h7 h8 h9 h10 h11 h12 h13; rfl

/-! ## The printed index maps, decided once over the grid's fourteen points -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = t.val :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 1) = 0 :=
  (by decide +kernel : ∀ t : Fin grid0.N, _)
theorem idx_w13 : ∀ t : Fin cfg0.N, win0_13.index t (0 : Fin 2) = 0 ∧ win0_13.index t (1 : Fin 2) = t.val :=
  (by decide +kernel : ∀ t : Fin grid0.N, _)

/-! ## What each input block holds -/

/-- Point `t`'s block of the item rows is rows `3584 t … 3584 t + 3583` of the padded item array. -/
theorem blk0 (c : Dev nD) (t : Fin cfg0.N) (r : Fin 3584) (k : Fin 64) (j : Fin 50176) (hj : j.val = t.val * 3584 + r.val) :
    (iblk m c 0 t : Vec Ideal S3584x64 .f32) (ix2 r k) = (V m c main_v88 : S50176x64.Idx → EReal) (ix2 j k) := by
  obtain ⟨e0, e1⟩ := idx_w0 t
  unfold iblk
  rw [View.read_apply]
  refine congrArg (V m c main_v88 : S50176x64.Idx → EReal) ?_
  funext a; apply Fin.ext
  match a with
  | ⟨0, _⟩ => show win0_0.index t (0 : Fin 2) * 3584 + 1 * r.val = j.val; rw [e0, hj]; omega
  | ⟨1, _⟩ => show win0_0.index t (1 : Fin 2) * 64 + 1 * k.val = k.val; rw [e1]; omega

/-- The same rows of the padded popularity array. -/
theorem blk1 (c : Dev nD) (t : Fin cfg0.N) (r : Fin 3584) (k : Fin 64) (j : Fin 50176) (hj : j.val = t.val * 3584 + r.val) :
    (iblk m c 1 t : Vec Ideal S3584x64 .f32) (ix2 r k) = (V m c main_v89 : S50176x64.Idx → EReal) (ix2 j k) := by
  obtain ⟨e0, e1⟩ := idx_w1 t
  unfold iblk
  rw [View.read_apply]
  refine congrArg (V m c main_v89 : S50176x64.Idx → EReal) ?_
  funext a; apply Fin.ext
  match a with
  | ⟨0, _⟩ => show win0_1.index t (0 : Fin 2) * 3584 + 1 * r.val = j.val; rw [e0, hj]; omega
  | ⟨1, _⟩ => show win0_1.index t (1 : Fin 2) * 64 + 1 * k.val = k.val; rw [e1]; omega

/-- The same columns of the padded item-bias row. -/
theorem blk2 (c : Dev nD) (t : Fin cfg0.N) (r : Fin 3584) (j : Fin 50176) (hj : j.val = t.val * 3584 + r.val) :
    (iblk m c 2 t : Vec Ideal S1x3584 .f32) (ix2 (0 : Fin 1) r) = (V m c main_v90 : S1x50176.Idx → EReal) (ix2 (0 : Fin 1) j) := by
  obtain ⟨e0, e1⟩ := idx_w2 t
  unfold iblk
  rw [View.read_apply]
  refine congrArg (V m c main_v90 : S1x50176.Idx → EReal) ?_
  funext a; apply Fin.ext
  match a with
  | ⟨0, _⟩ => show win0_2.index t (0 : Fin 2) * 1 + 1 * 0 = 0; rw [e0]
  | ⟨1, _⟩ => show win0_2.index t (1 : Fin 2) * 3584 + 1 * r.val = j.val; rw [e1, hj]; omega

/-- Window 3's one block is its whole array. -/
theorem blk3 (c : Dev nD) (t : Fin cfg0.N) : (iblk m c 3 t : Vec Ideal S256x64 .f32) = (V m c main_v75 : S256x64.Idx → EReal) := by
  obtain ⟨e0, e1⟩ := idx_w3 t
  funext y
  unfold iblk
  rw [View.read_apply]
  refine congrArg (V m c main_v75 : S256x64.Idx → EReal) ?_
  funext a; apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- Window 4's one block is its whole array. -/
theorem blk4 (c : Dev nD) (t : Fin cfg0.N) : (iblk m c 4 t : Vec Ideal S256x1 .f32) = (V m c main_v84 : S256x1.Idx → EReal) := by
  obtain ⟨e0, e1⟩ := idx_w4 t
  funext y
  unfold iblk
  rw [View.read_apply]
  refine congrArg (V m c main_v84 : S256x1.Idx → EReal) ?_
  funext a; apply Fin.ext
  match a with
  | ⟨0, _⟩ => show win0_4.index t (0 : Fin 2) * 256 + 1 * (y 0).val = (y 0).val; rw [e0]; omega
  | ⟨1, _⟩ => show win0_4.index t (1 : Fin 2) * 1 + 1 * (y 1).val = (y 1).val; rw [e1]; omega

/-- Window 5's one block is its whole array. -/
theorem blk5 (c : Dev nD) (t : Fin cfg0.N) : (iblk m c 5 t : Vec Ideal S128x64 .f32) = (V m c main_arg13 : S128x64.Idx → EReal) := by
  obtain ⟨e0, e1⟩ := idx_w5 t
  funext y
  unfold iblk
  rw [View.read_apply]
  refine congrArg (V m c main_arg13 : S128x64.Idx → EReal) ?_
  funext a; apply Fin.ext
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- Window 6's one block is its whole array. -/
theorem blk6 (c : Dev nD) (t : Fin cfg0.N) : (iblk m c 6 t : Vec Ideal S64 .f32) = (V m c main_arg14 : S64.Idx → EReal) := by
  have e0 := idx_w6 t
  funext y
  unfold iblk
  rw [View.read_apply]
  refine congrArg (V m c main_arg14 : S64.Idx → EReal) ?_
  funext a; apply Fin.ext
  match a with
  | ⟨0, _⟩ => show win0_6.index t (0 : Fin 1) * 64 + 1 * (y 0).val = (y 0).val; rw [e0]; omega

/-- Window 7's one block is its whole array. -/
theorem blk7 (c : Dev nD) (t : Fin cfg0.N) : (iblk m c 7 t : Vec Ideal S64x1 .f32) = (V m c main_arg15 : S64x1.Idx → EReal) := by
  obtain ⟨e0, e1⟩ := idx_w7 t
  funext y
  unfold iblk
  rw [View.read_apply]
  refine congrArg (V m c main_arg15 : S64x1.Idx → EReal) ?_
  funext a; apply Fin.ext
  match a with
  | ⟨0, _⟩ => show win0_7.index t (0 : Fin 2) * 64 + 1 * (y 0).val = (y 0).val; rw [e0]; omega
  | ⟨1, _⟩ => show win0_7.index t (1 : Fin 2) * 1 + 1 * (y 1).val = (y 1).val; rw [e1]; omega

/-- Window 8's one block is its whole array. -/
theorem blk8 (c : Dev nD) (t : Fin cfg0.N) : (iblk m c 8 t : Vec Ideal S1 .f32) = (V m c main_arg16 : S1.Idx → EReal) := by
  have e0 := idx_w8 t
  funext y
  unfold iblk
  rw [View.read_apply]
  refine congrArg (V m c main_arg16 : S1.Idx → EReal) ?_
  funext a; apply Fin.ext
  match a with
  | ⟨0, _⟩ => show win0_8.index t (0 : Fin 1) * 1 + 1 * (y 0).val = (y 0).val; rw [e0]; omega

/-- Window 9's one block is its whole array. -/
theorem blk9 (c : Dev nD) (t : Fin cfg0.N) : (iblk m c 9 t : Vec Ideal S64x64 .f32) = (V m c main_arg9 : S64x64.Idx → EReal) := by
  obtain ⟨e0, e1⟩ := idx_w9 t
  funext y
  unfold iblk
  rw [View.read_apply]
  refine congrArg (V m c main_arg9 : S64x64.Idx → EReal) ?_
  funext a; apply Fin.ext
  match a with
  | ⟨0, _⟩ => show win0_9.index t (0 : Fin 2) * 64 + 1 * (y 0).val = (y 0).val; rw [e0]; omega
  | ⟨1, _⟩ => show win0_9.index t (1 : Fin 2) * 64 + 1 * (y 1).val = (y 1).val; rw [e1]; omega

/-- Window 10's one block is its whole array. -/
theorem blk10 (c : Dev nD) (t : Fin cfg0.N) : (iblk m c 10 t : Vec Ideal S64 .f32) = (V m c main_arg10 : S64.Idx → EReal) := by
  have e0 := idx_w10 t
  funext y
  unfold iblk
  rw [View.read_apply]
  refine congrArg (V m c main_arg10 : S64.Idx → EReal) ?_
  funext a; apply Fin.ext
  match a with
  | ⟨0, _⟩ => show win0_10.index t (0 : Fin 1) * 64 + 1 * (y 0).val = (y 0).val; rw [e0]; omega

/-- Window 11's one block is its whole array. -/
theorem blk11 (c : Dev nD) (t : Fin cfg0.N) : (iblk m c 11 t : Vec Ideal S64x64 .f32) = (V m c main_arg11 : S64x64.Idx → EReal) := by
  obtain ⟨e0, e1⟩ := idx_w11 t
  funext y
  unfold iblk
  rw [View.read_apply]
  refine congrArg (V m c main_arg11 : S64x64.Idx → EReal) ?_
  funext a; apply Fin.ext
  match a with
  | ⟨0, _⟩ => show win0_11.index t (0 : Fin 2) * 64 + 1 * (y 0).val = (y 0).val; rw [e0]; omega
  | ⟨1, _⟩ => show win0_11.index t (1 : Fin 2) * 64 + 1 * (y 1).val = (y 1).val; rw [e1]; omega

/-- Window 12's one block is its whole array. -/
theorem blk12 (c : Dev nD) (t : Fin cfg0.N) : (iblk m c 12 t : Vec Ideal S64 .f32) = (V m c main_arg12 : S64.Idx → EReal) := by
  have e0 := idx_w12 t
  funext y
  unfold iblk
  rw [View.read_apply]
  refine congrArg (V m c main_arg12 : S64.Idx → EReal) ?_
  funext a; apply Fin.ext
  match a with
  | ⟨0, _⟩ => show win0_12.index t (0 : Fin 1) * 64 + 1 * (y 0).val = (y 0).val; rw [e0]; omega

/-- Entry (b, r) of point `t`'s output block sits at column `3584 t + r` of the padded output. -/
theorem emb13 (t : Fin cfg0.N) (b : Fin 256) (r : Fin 3584) (j : Fin 50176) (hj : j.val = t.val * 3584 + r.val) :
    ((cfg0.win 13).blk t).view.emb (ix2 b r) = (ix2 b j : S256x50176.Idx) := by
  obtain ⟨e0, e1⟩ := idx_w13 t
  funext a; apply Fin.ext
  match a with
  | ⟨0, _⟩ => show win0_13.index t (0 : Fin 2) * 256 + 1 * b.val = b.val; rw [e0]; omega
  | ⟨1, _⟩ => show win0_13.index t (1 : Fin 2) * 3584 + 1 * r.val = j.val; rw [e1, hj]; omega

/-- WHAT POINT `t` WRITES BACK is block `t` of the padded output: the body's entry (b, r) is the score of user b against
    item `3584 t + r`, whose rows and bias the point's input blocks hold. -/
theorem flushed13_eq (c : Dev nD) (t : Fin cfg0.N) :
    (dats m 0 c).flushed 13 t = ((cfg0.win 13).blk t).view.read (Elt Ideal)
      (padded (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12)) := by
  show (cfg0.win 13).cut (grid0.coords t) ((dats m 0 c).after 13 t) = _
  rw [after0_13]
  unfold out0_13
  rw [View.canon_unit_zero hz2]
  simp only [View.ld_unit_zero (S := S3584x64) hz2, View.ld_unit_zero (S := S128x64) hz2, View.ld_unit_zero (S := S64) hz1,
    View.ld_unit_zero (S := S64x1) hz2, View.ld_unit_zero (S := S1) hz1, View.ld_unit_zero (S := S64x64) hz2,
    View.ld_unit_zero (S := S256x64) hz2, View.ld_unit_zero (S := S256x1) hz2, View.ld_unit_zero (S := S1x3584) hz2]
  funext y
  obtain ⟨b, r, rfl⟩ : ∃ (b : Fin 256) (r : Fin 3584), y = ix2 b r := ⟨y 0, y 1, eq_ix2 y⟩
  have hN : cfg0.N = 14 := N_0
  have hlt : t.val * 3584 + r.val < 50176 := by have := t.isLt; have := r.isLt; omega
  show k0_pay1 (k0_pay2 (iblk m c 0 t) (iblk m c 1 t) (iblk m c 5 t) (iblk m c 6 t) (iblk m c 7 t) (iblk m c 8 t)
      (iblk m c 9 t) (iblk m c 10 t)) k0_pay3 (iblk m c 11 t) (iblk m c 12 t) (iblk m c 3 t) (iblk m c 4 t) (iblk m c 2 t)
      (ix2 b r) = _
  rw [View.read_apply, emb13 t b r ⟨t.val * 3584 + r.val, hlt⟩ rfl]
  refine (payload_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) b r).trans ?_
  show _ = entry (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12) b ⟨t.val * 3584 + r.val, hlt⟩
  unfold entry
  refine score_congr (blk5 m c t) (blk6 m c t) (blk7 m c t) (blk8 m c t) (blk9 m c t) (blk10 m c t) (blk11 m c t)
    (blk12 m c t) ?_ ?_ ?_ ?_ ?_
  · funext k; exact congrFun (blk3 m c t) (ix2 b k)
  · exact congrFun (blk4 m c t) (ix2 b (0 : Fin 1))
  · exact blk2 m c t r _ rfl
  · funext k; exact blk0 m c t r k _ rfl
  · funext k; exact blk1 m c t r k _ rfl

/-- An index of the padded output is in point `t`'s block iff each coordinate is in the block's range on its axis. -/
theorem mem_blk13 (t : Fin cfg0.N) (i : S256x50176.Idx) :
    i ∈ ((cfg0.win 13).blk t).view.set ↔ ∀ a : Fin 2, win0_13.index t a * S256x3584.size a ≤ (i a).val
      ∧ (i a).val < win0_13.index t a * S256x3584.size a + S256x3584.size a := by
  show i ∈ ((View.whole main_v91).slice (win0_13.rect t)).set ↔ _
  rw [View.set_slice_whole, Rect.mem_set_unit]
  exact Iff.rfl

/-- The fourteen blocks tile the padded output: column `j` is in the block of point `j / 3584`. -/
theorem cover13 (i : S256x50176.Idx) :
    ∃ t : Fin cfg0.N, (cfg0.win 13).flush t = true ∧ i ∈ ((cfg0.win 13).blk t).view.set := by
  have hN : cfg0.N = 14 := N_0
  have hi0 : (i 0).val < 256 := (i 0).isLt
  have hi1 : (i 1).val < 50176 := (i 1).isLt
  have hq : (i 1).val / 3584 < cfg0.N := by omega
  obtain ⟨e0, e1⟩ := idx_w13 ⟨(i 1).val / 3584, hq⟩
  refine ⟨⟨(i 1).val / 3584, hq⟩, flush0_13 _, ?_⟩
  rw [mem_blk13]
  intro a
  match a with
  | ⟨0, _⟩ =>
    show win0_13.index ⟨(i 1).val / 3584, hq⟩ (0 : Fin 2) * 256 ≤ (i 0).val
      ∧ (i 0).val < win0_13.index ⟨(i 1).val / 3584, hq⟩ (0 : Fin 2) * 256 + 256
    rw [e0]; omega
  | ⟨1, _⟩ =>
    show win0_13.index ⟨(i 1).val / 3584, hq⟩ (1 : Fin 2) * 3584 ≤ (i 1).val
      ∧ (i 1).val < win0_13.index ⟨(i 1).val / 3584, hq⟩ (1 : Fin 2) * 3584 + 3584
    rw [e1]
    show (i 1).val / 3584 * 3584 ≤ (i 1).val ∧ (i 1).val < (i 1).val / 3584 * 3584 + 3584
    omega

/-- THE ARRAY after the region: the padded output. -/
theorem final13 (c : Dev nD) : (dats m 0 c).arrAt 13 cfg0.N
    = padded (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12) :=
  (dats m 0 c).arrAt_eq_of_cover 13 _ (fun t _ => flushed13_eq m c t) cover13

/-- The program's result: the padded output with the 176 padding columns cut off. -/
def sliced (c : Dev nD) : S256x50000.Idx → EReal :=
  extractStridedSlice S256x50000 ![0, 0]
    (padded (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12)) slices_S256x50176_S256x50000_0_0

/-- The one host operation after the region slices the region's output array. -/
theorem tail_v92 (c : Dev nD) :
    Pipeline.afterTail₀ cfgs (dats m) 0 (V0 m) [hostOps1] c main_v92 = sliced m c := by
  unfold Pipeline.afterTail₀
  show StableHlo.after hostOps1 _ (Proc.devRef .tc main_v92) = _
  after_results
  have h : (Pipeline.withArrays (cfgs 0).spec c (V0 m c) (fun w => (dats m 0 c).arrAt w (cfgs 0).N)
      (Proc.devRef .tc main_v91) : S256x50176.Idx → EReal)
      = padded (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12) :=
    (Pipeline.withArrays_arr spec0 launch0.win.arr_inj c (V0 m c) (fun w => (dats m 0 c).arrAt w cfg0.N) 13).trans (final13 m c)
  unfold sliced
  rw [h]

set_option maxHeartbeats 1600000 in
/-- The kernel program's run, read: every weakly fair execution ends with the result buffer at `sliced` and every
    argument array as launched. -/
theorem run_kernel (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v92) = sliced m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) :=
  (θ_run defs _ _).mono (fun _ h c => ⟨((h c).2 main_v92 (Pipeline.mem_restRefs_of main_v92 (by decide) (by decide))).trans (tail_v92 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 5).trans (((dats m 0 c).arrAt_in 5 rfl _).trans ((A_eq m c 5).trans (V_main_arg13 m c))),
      ((h c).1 6).trans (((dats m 0 c).arrAt_in 6 rfl _).trans ((A_eq m c 6).trans (V_main_arg14 m c))),
      ((h c).1 7).trans (((dats m 0 c).arrAt_in 7 rfl _).trans ((A_eq m c 7).trans (V_main_arg15 m c))),
      ((h c).1 8).trans (((dats m 0 c).arrAt_in 8 rfl _).trans ((A_eq m c 8).trans (V_main_arg16 m c))),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c))⟩) (run_main m ρ)

/-- The padded output at (b, j) is the entry there. -/
theorem padded_at (it pv : S50176x64.Idx → EReal) (ibr : S1x50176.Idx → EReal) (U : S256x64.Idx → EReal)
    (ubc : S256x1.Idx → EReal) (W1 : S128x64.Idx → EReal) (b1 : S64.Idx → EReal) (W2 : S64x1.Idx → EReal)
    (b2 : S1.Idx → EReal) (V1 : S64x64.Idx → EReal) (c1 : S64.Idx → EReal) (V2 : S64x64.Idx → EReal) (c2 : S64.Idx → EReal)
    (b : Fin 256) (j : Fin 50176) :
    padded it pv ibr U ubc W1 b1 W2 b2 V1 c1 V2 c2 (ix2 b j) = entry it pv ibr U ubc W1 b1 W2 b2 V1 c1 V2 c2 b j := rfl

/-- The slice of a padded output at (b, j), for an item `j` below 50000, is the entry at the same place. -/
theorem slice_padded_at (it pv : S50176x64.Idx → EReal) (ibr : S1x50176.Idx → EReal) (U : S256x64.Idx → EReal)
    (ubc : S256x1.Idx → EReal) (W1 : S128x64.Idx → EReal) (b1 : S64.Idx → EReal) (W2 : S64x1.Idx → EReal)
    (b2 : S1.Idx → EReal) (V1 : S64x64.Idx → EReal) (c1 : S64.Idx → EReal) (V2 : S64x64.Idx → EReal) (c2 : S64.Idx → EReal)
    (b : Fin 256) (j : Fin 50000) (hj : j.val < 50176) :
    extractStridedSlice S256x50000 ![0, 0] (padded it pv ibr U ubc W1 b1 W2 b2 V1 c1 V2 c2)
        slices_S256x50176_S256x50000_0_0 (ix2 b j)
      = entry it pv ibr U ubc W1 b1 W2 b2 V1 c1 V2 c2 b ⟨j.val, hj⟩ :=
  (slice2_axis1_apply 0 (padded it pv ibr U ubc W1 b1 W2 b2 V1 c1 V2 c2) slices_S256x50176_S256x50000_0_0 b j
    ⟨j.val, hj⟩ (Nat.zero_add _).symm).trans (padded_at it pv ibr U ubc W1 b1 W2 b2 V1 c1 V2 c2 b ⟨j.val, hj⟩)

/-- The program's result at (b, j): the entry of the arrays the region finds. -/
theorem sliced_entry (c : Dev nD) (b : Fin 256) (j : Fin 50000) (hj : j.val < 50176) :
    sliced m c (ix2 b j)
      = entry (V m c main_v88) (V m c main_v89) (V m c main_v90) (V m c main_v75) (V m c main_v84) (V m c main_arg13)
        (V m c main_arg14) (V m c main_arg15) (V m c main_arg16) (V m c main_arg9) (V m c main_arg10) (V m c main_arg11)
        (V m c main_arg12) b ⟨j.val, hj⟩ := by
  unfold sliced
  exact slice_padded_at _ _ _ _ _ _ _ _ _ _ _ _ _ b j hj

end Cert.KernelIdeal.Blocks

end
-- ==== Proof.KHostItems.lean ====
/-
  The item array the region finds.
  Both programs prepare their operands by the same host operations (the three rounds of neighbour aggregation, the two
  table look-ups, the user tower, the bias look-up). The reference's chain is named one stage at a time in the generated
  read-back of its run; here the kernel program's host prefix is unrolled once and seen to be that same chain of the same
  arguments, so that neither side is ever opened again.
-/
import proofs.«158885_j34694745817427_1_alg».proof.Proof.Gen.KernelIdeal.Frame
import proofs.«158885_j34694745817427_1_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 32000000 in
/-- The region finds the item array: the propagated item embeddings, padded with 176 zero rows. -/
theorem found_items (c : Dev nD) : (V m c main_v88 : S50176x64.Idx → EReal)
    = pad S50176x64 ![0, 0] ![176, 0] ![0, 0]
        (Cert.ReferenceIdeal.Read.val_main_v52 (F := Ideal) (m ((c : Thread nD τ).loc main_arg0)) (m ((c : Thread nD τ).loc main_arg1)) (m ((c : Thread nD τ).loc main_arg17)) (m ((c : Thread nD τ).loc main_arg18)) (m ((c : Thread nD τ).loc main_arg19)))
        (sitofp .f32 (constantI S_ 32 0#32) : FVec Ideal S_ .f32) pads_S50000x64_S50176x64_01760_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.KHost

end
-- ==== Proof.KHostPop.lean ====
/-
  The popularity array the region finds.
  Both programs prepare their operands by the same host operations (the three rounds of neighbour aggregation, the two
  table look-ups, the user tower, the bias look-up). The reference's chain is named one stage at a time in the generated
  read-back of its run; here the kernel program's host prefix is unrolled once and seen to be that same chain of the same
  arguments, so that neither side is ever opened again.
-/
import proofs.«158885_j34694745817427_1_alg».proof.Proof.Gen.KernelIdeal.Frame
import proofs.«158885_j34694745817427_1_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 32000000 in
/-- The region finds the popularity array: each item's popularity-bin embedding, padded with 176 zero rows. -/
theorem found_pop (c : Dev nD) : (V m c main_v89 : S50176x64.Idx → EReal)
    = pad S50176x64 ![0, 0] ![176, 0] ![0, 0]
        (Cert.ReferenceIdeal.Read.val_main_v59 (F := Ideal) (m ((c : Thread nD τ).loc main_arg4)) (m ((c : Thread nD τ).loc main_arg20)))
        (sitofp .f32 (constantI S_ 32 0#32) : FVec Ideal S_ .f32) pads_S50000x64_S50176x64_01760_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.KHost

end
-- ==== Proof.KHostIBias.lean ====
/-
  The item-bias row the region finds.
  Both programs prepare their operands by the same host operations (the three rounds of neighbour aggregation, the two
  table look-ups, the user tower, the bias look-up). The reference's chain is named one stage at a time in the generated
  read-back of its run; here the kernel program's host prefix is unrolled once and seen to be that same chain of the same
  arguments, so that neither side is ever opened again.
-/
import proofs.«158885_j34694745817427_1_alg».proof.Proof.Gen.KernelIdeal.Frame
import proofs.«158885_j34694745817427_1_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 32000000 in
/-- The region finds the item-bias row: the transposed bias column, padded with 176 zero columns. -/
theorem found_ibias (c : Dev nD) : (V m c main_v90 : S1x50176.Idx → EReal)
    = pad S1x50176 ![0, 0] ![0, 176] ![0, 0]
        (Cert.ReferenceIdeal.Read.val_main_v123 (F := Ideal) (m ((c : Thread nD τ).loc main_arg3)))
        (sitofp .f32 (constantI S_ 32 0#32) : FVec Ideal S_ .f32) pads_S1x50000_S1x50176_000_01760 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.KHost

end
-- ==== Proof.KHostUsers.lean ====
/-
  The users' vectors the region finds.
  Both programs prepare their operands by the same host operations (the three rounds of neighbour aggregation, the two
  table look-ups, the user tower, the bias look-up). The reference's chain is named one stage at a time in the generated
  read-back of its run; here the kernel program's host prefix is unrolled once and seen to be that same chain of the same
  arguments, so that neither side is ever opened again.
-/
import proofs.«158885_j34694745817427_1_alg».proof.Proof.Gen.KernelIdeal.Frame
import proofs.«158885_j34694745817427_1_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 32000000 in
/-- The region finds the users' vectors: the user tower of the gathered user embeddings. -/
theorem found_users (c : Dev nD) : (V m c main_v75 : S256x64.Idx → EReal)
    = Cert.ReferenceIdeal.Read.val_main_v98 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg17)) (m ((c : Thread nD τ).loc main_arg18)) (m ((c : Thread nD τ).loc main_arg19)) (m ((c : Thread nD τ).loc main_arg21)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.KHost

end
-- ==== Proof.KHostUBias.lean ====
/-
  The users' biases the region finds.
  Both programs prepare their operands by the same host operations (the three rounds of neighbour aggregation, the two
  table look-ups, the user tower, the bias look-up). The reference's chain is named one stage at a time in the generated
  read-back of its run; here the kernel program's host prefix is unrolled once and seen to be that same chain of the same
  arguments, so that neither side is ever opened again.
-/
import proofs.«158885_j34694745817427_1_alg».proof.Proof.Gen.KernelIdeal.Frame
import proofs.«158885_j34694745817427_1_alg».proof.Proof.Gen.ReferenceIdeal.Read
import Idealize.ShloMosaic.PureOps.Ideal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 32000000 in
/-- The region finds the users' biases: the gathered bias column. -/
theorem found_ubias (c : Dev nD) : (V m c main_v84 : S256x1.Idx → EReal)
    = Cert.ReferenceIdeal.Read.val_main_v118 (F := Ideal) (m ((c : Thread nD τ).loc main_arg2)) (m ((c : Thread nD τ).loc main_arg21)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.KHost

end
-- ==== Proof.RefValue.lean ====
import proofs.«158885_j34694745817427_1_alg».proof.Proof.Gen.ReferenceIdeal.Read
import proofs.«158885_j34694745817427_1_alg».proof.Proof.Spec
import Idealize.ShloMosaic.Lib.Pipeline.Value
import Idealize.ShloMosaic.Lib.ValueIdx
import Idealize.ShloMosaic.PureOps.Ideal.Laws

/-!
  The reference program's result, one entry at a time, as the closed form `Cert.Score.score`.

  Entry `(b, j)` of the result is read backwards through the program: the two bias broadcasts, the product of the
  users' tower with the transposed items' tower, the items' two dense layers, the gated fusion of the two item rows,
  the logistic gate and its two dense layers, and the concatenation that feeds them. Each layer is one lemma, stated at
  the coordinates `(j, ·)` of ONE item row; the item's propagated row, its popularity row, the user's vector and the
  two biases are never opened. No law of arithmetic is used: every step is the meaning of one operation on the extended
  reals, an equation between two spellings of an index, or the spelling `1 / (1 + e^(-g))` of the logistic function.
-/

noncomputable section
namespace Cert.ReferenceIdeal.RefValue
open Cert.ReferenceIdeal Cert.ReferenceIdeal.Read Idealize.ShloMosaic Idealize.ShloMosaic.ValueIdx

/-! ## Indices: the generated index functions at explicit coordinates

A contraction over `k` reads its left operand at `(row, k)` and its right operand at `(k, column)`; a bias broadcast
along the rows reads the bias at the column; a broadcast of a one-column array along the columns reads column `0`;
a transposition exchanges the two coordinates. -/

theorem lidx61_at (j : Fin 50000) (l : Fin 64) (k : Fin 128) : lidx_main_v61 (ix2 j l) k = ix2 j k := by
  funext a; match a with | ⟨0, _⟩ => rfl | ⟨1, _⟩ => rfl
theorem ridx61_at (j : Fin 50000) (l : Fin 64) (k : Fin 128) : ridx_main_v61 (ix2 j l) k = ix2 k l := by
  funext a; match a with | ⟨0, _⟩ => rfl | ⟨1, _⟩ => rfl
theorem bias63_at (j : Fin 50000) (l : Fin 64) : idx_main_v62 (idx_main_v63 (ix2 j l)) = ix1 l := by
  funext a; match a with | ⟨0, _⟩ => rfl
theorem lidx66_at (j : Fin 50000) (l : Fin 64) : lidx_main_v66 (ix2 j (0 : Fin 1)) l = ix2 j l := by
  funext a; match a with | ⟨0, _⟩ => rfl | ⟨1, _⟩ => rfl
theorem ridx66_at (j : Fin 50000) (l : Fin 64) : ridx_main_v66 (ix2 j (0 : Fin 1)) l = ix2 l (0 : Fin 1) := by
  funext a; match a with | ⟨0, _⟩ => rfl | ⟨1, _⟩ => rfl
theorem bias68_at (j : Fin 50000) : idx_main_v67 (idx_main_v68 (ix2 j (0 : Fin 1))) = ix1 (0 : Fin 1) := by
  funext a; match a with | ⟨0, _⟩ => rfl
theorem col78_at (j : Fin 50000) (q : Fin 64) : idx_main_v78 (ix2 j q) = ix2 j (0 : Fin 1) := by
  funext a; match a with | ⟨0, _⟩ => rfl | ⟨1, _⟩ => rfl
theorem col80_at (j : Fin 50000) (q : Fin 64) : idx_main_v80 (ix2 j q) = ix2 j (0 : Fin 1) := by
  funext a; match a with | ⟨0, _⟩ => rfl | ⟨1, _⟩ => rfl
theorem lidx99_at (j : Fin 50000) (l q : Fin 64) : lidx_main_v99 (ix2 j l) q = ix2 j q := by
  funext a; match a with | ⟨0, _⟩ => rfl | ⟨1, _⟩ => rfl
theorem ridx99_at (j : Fin 50000) (l q : Fin 64) : ridx_main_v99 (ix2 j l) q = ix2 q l := by
  funext a; match a with | ⟨0, _⟩ => rfl | ⟨1, _⟩ => rfl
theorem bias101_at (j : Fin 50000) (l : Fin 64) : idx_main_v100 (idx_main_v101 (ix2 j l)) = ix1 l := by
  funext a; match a with | ⟨0, _⟩ => rfl
theorem lidx104_at (j : Fin 50000) (k l : Fin 64) : lidx_main_v104 (ix2 j k) l = ix2 j l := by
  funext a; match a with | ⟨0, _⟩ => rfl | ⟨1, _⟩ => rfl
theorem ridx104_at (j : Fin 50000) (k l : Fin 64) : ridx_main_v104 (ix2 j k) l = ix2 l k := by
  funext a; match a with | ⟨0, _⟩ => rfl | ⟨1, _⟩ => rfl
theorem bias106_at (j : Fin 50000) (k : Fin 64) : idx_main_v105 (idx_main_v106 (ix2 j k)) = ix1 k := by
  funext a; match a with | ⟨0, _⟩ => rfl
theorem lidx109_at (b : Fin 256) (j : Fin 50000) (k : Fin 64) : lidx_main_v109 (ix2 b j) k = ix2 b k := by
  funext a; match a with | ⟨0, _⟩ => rfl | ⟨1, _⟩ => rfl
theorem tr109_at (b : Fin 256) (j : Fin 50000) (k : Fin 64) :
    idx_main_v108 (ridx_main_v109 (ix2 b j) k) = ix2 j k := by
  funext a; match a with | ⟨0, _⟩ => rfl | ⟨1, _⟩ => rfl
theorem col119_at (b : Fin 256) (j : Fin 50000) : idx_main_v119 (ix2 b j) = ix2 b (0 : Fin 1) := by
  funext a; match a with | ⟨0, _⟩ => rfl | ⟨1, _⟩ => rfl
theorem row124_at (b : Fin 256) (j : Fin 50000) : idx_main_v124 (ix2 b j) = ix2 (0 : Fin 1) j := by
  funext a; match a with | ⟨0, _⟩ => rfl | ⟨1, _⟩ => rfl

/-! ## The layers of one item row -/

section Layers
variable
    (x0 : (⟨S100000x64, .f32⟩ : BufTy).Contents (Elt Ideal)) (x1 : (⟨S50000x64, .f32⟩ : BufTy).Contents (Elt Ideal))
    (x2 : (⟨S100000x1, .f32⟩ : BufTy).Contents (Elt Ideal)) (x3 : (⟨S50000x1, .f32⟩ : BufTy).Contents (Elt Ideal))
    (x4 : (⟨S10x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x64, .f32⟩ : BufTy).Contents (Elt Ideal))
    (x12 : (⟨S64, .f32⟩ : BufTy).Contents (Elt Ideal)) (x13 : (⟨S128x64, .f32⟩ : BufTy).Contents (Elt Ideal))
    (x14 : (⟨S64, .f32⟩ : BufTy).Contents (Elt Ideal)) (x15 : (⟨S64x1, .f32⟩ : BufTy).Contents (Elt Ideal))
    (x16 : (⟨S1, .f32⟩ : BufTy).Contents (Elt Ideal)) (x17 : (⟨S2000000, .f32⟩ : BufTy).Contents (Elt Ideal))
    (x18 x19 : (⟨S2000000, .i32⟩ : BufTy).Contents (Elt Ideal)) (x20 : (⟨S50000, .i32⟩ : BufTy).Contents (Elt Ideal))
    (x21 : (⟨S256, .i32⟩ : BufTy).Contents (Elt Ideal))

/-- The gate's input at `(j, k)`: entry `k` of item `j`'s propagated row for `k < 64`, entry `k - 64` of its
    popularity row otherwise — the joined axis has the first piece's 64 columns, then the second's. -/
theorem v60_at (j : Fin 50000) (k : Fin 128) :
    val_main_v60 (F := Ideal) x0 x1 x4 x17 x18 x19 x20 (ix2 j k) = Cert.Score.cat (fun k => val_main_v52 (F := Ideal) x0 x1 x17 x18 x19 (ix2 j k)) (fun k => val_main_v59 (F := Ideal) x4 x20 (ix2 j k)) k := by
  unfold val_main_v60 Cert.Score.cat
  generalize val_main_v52 (F := Ideal) x0 x1 x17 x18 x19 = A
  generalize val_main_v59 (F := Ideal) x4 x20 = B
  by_cases h : k.val < 64
  · rw [dif_pos h]
    exact concatenate_pair_apply_left (t := S50000x128) 1 A B _ (ix2 j k) rfl (ix2 j ⟨k.val, h⟩)
      (fun b => match b with | ⟨0, _⟩ => rfl | ⟨1, _⟩ => rfl)
  · rw [dif_neg h]
    exact concatenate_pair_apply_right (t := S50000x128) 1 A B _ (ix2 j k) rfl rfl
      (ix2 j ⟨k.val - 64, by have := k.isLt; omega⟩)
      (fun b hb => match b, hb with | ⟨0, _⟩, _ => rfl | ⟨1, _⟩, hb => absurd rfl hb)
      (by show (k.val - 64) + 64 = k.val; omega)

/-- The gate's hidden layer at `(j, l)`: the joined row against column `l` of the first gate matrix, plus the bias at
    `l`, against zero. -/
theorem v65_at (j : Fin 50000) (l : Fin 64) :
    val_main_v65 (F := Ideal) x0 x1 x4 x13 x14 x17 x18 x19 x20 (ix2 j l) = Cert.Score.hid x13 x14 (fun k => val_main_v52 (F := Ideal) x0 x1 x17 x18 x19 (ix2 j k)) (fun k => val_main_v59 (F := Ideal) x4 x20 (ix2 j k)) l := by
  rw [val_main_v65_apply, val_main_v64_apply, val_main_v61_apply, val_main_v63_apply, val_main_v62_apply,
    val_main_call0_v0_apply, val_main_call0_cst_apply, bias63_at]
  unfold Cert.Score.hid
  refine congrArg (fun s : EReal => max (s + x14 (ix1 l)) Cert.Score.zeroW) (Finset.sum_congr rfl fun k _ => ?_)
  rw [lidx61_at, ridx61_at, v60_at]

/-- The gate of item `j`: the hidden row against the second gate matrix's one column, plus its bias, through
    `1 / (1 + e^(-·))`, which is the logistic function. -/
theorem v75_at (j : Fin 50000) :
    val_main_v75 (F := Ideal) x0 x1 x4 x13 x14 x15 x16 x17 x18 x19 x20 (ix2 j (0 : Fin 1))
      = Cert.Score.gate x13 x14 x15 x16 (fun k => val_main_v52 (F := Ideal) x0 x1 x17 x18 x19 (ix2 j k)) (fun k => val_main_v59 (F := Ideal) x4 x20 (ix2 j k)) := by
  rw [val_main_v75_apply, val_main_v74_apply, val_main_cst_14_apply, val_main_v73_apply, val_main_v72_apply,
    val_main_cst_13_apply, val_main_v71_apply, val_main_v70_apply, val_main_v69_apply, val_main_v66_apply,
    val_main_v68_apply, val_main_v67_apply, bias68_at]
  unfold Cert.Score.gate
  rw [← Cert.Score.logistic_spelled]
  unfold Cert.Score.pre
  refine congrArg (fun s : EReal => Ideal.div Cert.Score.oneW
    (Cert.Score.oneW + Ideal.exp (-(s + x16 (ix1 (0 : Fin 1)))))) (Finset.sum_congr rfl fun l _ => ?_)
  rw [lidx66_at, ridx66_at, v65_at]

/-- The fused row at `(j, q)`: `(1 - z) · x + z · p` with `z` the gate of item `j`, read at column `0` of the
    one-column gate array whatever `q` is. -/
theorem v82_at (j : Fin 50000) (q : Fin 64) :
    val_main_v82 (F := Ideal) x0 x1 x4 x13 x14 x15 x16 x17 x18 x19 x20 (ix2 j q) = Cert.Score.mix (Cert.Score.gate x13 x14 x15 x16 (fun k => val_main_v52 (F := Ideal) x0 x1 x17 x18 x19 (ix2 j k)) (fun k => val_main_v59 (F := Ideal) x4 x20 (ix2 j k))) (fun k => val_main_v52 (F := Ideal) x0 x1 x17 x18 x19 (ix2 j k)) (fun k => val_main_v59 (F := Ideal) x4 x20 (ix2 j k)) q := by
  rw [val_main_v82_apply, val_main_v79_apply, val_main_v78_apply, val_main_v77_apply, val_main_v76_apply,
    val_main_cst_15_apply, val_main_v81_apply, val_main_v80_apply, col78_at, col80_at, v75_at]
  rfl

/-- The item tower's hidden layer at `(j, l)`: the fused row against column `l` of the first tower matrix, plus the
    bias at `l`, against zero. -/
theorem v103_at (j : Fin 50000) (l : Fin 64) :
    val_main_v103 (F := Ideal) x0 x1 x4 x9 x10 x13 x14 x15 x16 x17 x18 x19 x20 (ix2 j l)
      = Cert.Score.hid2 x9 x10 (Cert.Score.mix (Cert.Score.gate x13 x14 x15 x16 (fun k => val_main_v52 (F := Ideal) x0 x1 x17 x18 x19 (ix2 j k)) (fun k => val_main_v59 (F := Ideal) x4 x20 (ix2 j k))) (fun k => val_main_v52 (F := Ideal) x0 x1 x17 x18 x19 (ix2 j k)) (fun k => val_main_v59 (F := Ideal) x4 x20 (ix2 j k))) l := by
  rw [val_main_v103_apply, val_main_v102_apply, val_main_v99_apply, val_main_v101_apply, val_main_v100_apply,
    val_main_call2_v0_apply, val_main_call2_cst_apply, bias101_at]
  unfold Cert.Score.hid2
  refine congrArg (fun s : EReal => max (s + x10 (ix1 l)) Cert.Score.zeroW) (Finset.sum_congr rfl fun q _ => ?_)
  rw [lidx99_at, ridx99_at, v82_at]

/-- The item's vector at `(j, k)`: the hidden row against column `k` of the second tower matrix, plus the bias at `k`. -/
theorem v107_at (j : Fin 50000) (k : Fin 64) :
    val_main_v107 (F := Ideal) x0 x1 x4 x9 x10 x11 x12 x13 x14 x15 x16 x17 x18 x19 x20 (ix2 j k)
      = Cert.Score.emb x9 x10 x11 x12 (Cert.Score.mix (Cert.Score.gate x13 x14 x15 x16 (fun k => val_main_v52 (F := Ideal) x0 x1 x17 x18 x19 (ix2 j k)) (fun k => val_main_v59 (F := Ideal) x4 x20 (ix2 j k))) (fun k => val_main_v52 (F := Ideal) x0 x1 x17 x18 x19 (ix2 j k)) (fun k => val_main_v59 (F := Ideal) x4 x20 (ix2 j k))) k := by
  rw [val_main_v107_apply, val_main_v104_apply, val_main_v106_apply, val_main_v105_apply, bias106_at]
  unfold Cert.Score.emb
  refine congrArg (fun s : EReal => s + x12 (ix1 k)) (Finset.sum_congr rfl fun l _ => ?_)
  rw [lidx104_at, ridx104_at, v103_at]

end Layers

/-! ## One score -/

/-- Entry `(b, j)` of the reference's result: user `b`'s vector against item `j`'s vector (the right operand is the
    items' tower transposed, so its entry `(k, j)` is the tower's `(j, k)`), plus user `b`'s bias (column `0` of a
    one-column array), plus item `j`'s bias (row `0` of a one-row array), added in that order. -/
theorem ref_score
    (x0 : (⟨S100000x64, .f32⟩ : BufTy).Contents (Elt Ideal)) (x1 : (⟨S50000x64, .f32⟩ : BufTy).Contents (Elt Ideal))
    (x2 : (⟨S100000x1, .f32⟩ : BufTy).Contents (Elt Ideal)) (x3 : (⟨S50000x1, .f32⟩ : BufTy).Contents (Elt Ideal))
    (x4 : (⟨S10x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x64, .f32⟩ : BufTy).Contents (Elt Ideal))
    (x12 : (⟨S64, .f32⟩ : BufTy).Contents (Elt Ideal)) (x13 : (⟨S128x64, .f32⟩ : BufTy).Contents (Elt Ideal))
    (x14 : (⟨S64, .f32⟩ : BufTy).Contents (Elt Ideal)) (x15 : (⟨S64x1, .f32⟩ : BufTy).Contents (Elt Ideal))
    (x16 : (⟨S1, .f32⟩ : BufTy).Contents (Elt Ideal)) (x17 : (⟨S2000000, .f32⟩ : BufTy).Contents (Elt Ideal))
    (x18 x19 : (⟨S2000000, .i32⟩ : BufTy).Contents (Elt Ideal)) (x20 : (⟨S50000, .i32⟩ : BufTy).Contents (Elt Ideal))
    (x21 : (⟨S256, .i32⟩ : BufTy).Contents (Elt Ideal)) (b : Fin 256) (j : Fin 50000) :
    val_main_v125 (F := Ideal) x0 x1 x2 x3 x4 x5 x6 x7 x8 x9 x10 x11 x12 x13 x14 x15 x16 x17 x18 x19 x20 x21 (ix2 b j)
      = Cert.Score.score x13 x14 x15 x16 x9 x10 x11 x12
          (fun k => val_main_v98 (F := Ideal) x0 x1 x5 x6 x7 x8 x17 x18 x19 x21 (ix2 b k))
          (val_main_v118 (F := Ideal) x2 x21 (ix2 b (0 : Fin 1)))
          (val_main_v123 (F := Ideal) x3 (ix2 (0 : Fin 1) j))
          (fun k => val_main_v52 (F := Ideal) x0 x1 x17 x18 x19 (ix2 j k))
          (fun k => val_main_v59 (F := Ideal) x4 x20 (ix2 j k)) := by
  rw [val_main_v125_apply, val_main_v120_apply, val_main_v109_apply, val_main_v119_apply, val_main_v124_apply,
    col119_at, row124_at]
  unfold Cert.Score.score Cert.Score.itemVec
  refine congrArg (fun s : EReal => s + val_main_v118 (F := Ideal) x2 x21 (ix2 b (0 : Fin 1))
    + val_main_v123 (F := Ideal) x3 (ix2 (0 : Fin 1) j)) (Finset.sum_congr rfl fun k _ => ?_)
  rw [lidx109_at, val_main_v108_apply, tr109_at, v107_at]

end Cert.ReferenceIdeal.RefValue

end
-- ==== Proof.Bridge.lean ====
/-
  The two programs compute one function.

  The kernel program's result at (b, j) is the score of user b against row j of the arrays its region finds
  (Proof/Blocks.lean); those arrays are the reference's own intermediate values of the same arguments, the item-side
  ones padded at the end (Proof/KHost*.lean), and a padded array read below the original extent is the original array;
  the reference's result at (b, j) is the same score of the same values (Proof/RefValue.lean). Both programs add the
  user bias first and the item bias second, contract over the same coordinates and use the same literals, so the two
  expressions are equal term by term: no algebraic law, and nothing about finiteness, is needed.
-/
import proofs.«158885_j34694745817427_1_alg».proof.Proof.Blocks
import proofs.«158885_j34694745817427_1_alg».proof.Proof.KHostItems
import proofs.«158885_j34694745817427_1_alg».proof.Proof.KHostPop
import proofs.«158885_j34694745817427_1_alg».proof.Proof.KHostIBias
import proofs.«158885_j34694745817427_1_alg».proof.Proof.KHostUsers
import proofs.«158885_j34694745817427_1_alg».proof.Proof.KHostUBias
import proofs.«158885_j34694745817427_1_alg».proof.Proof.RefValue
import Idealize.ShloMosaic.Lib.KernelVsHost

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- An array padded with rows at the end reads, at a row below the original extent, the original array. -/
theorem pad_rows (x : S50000x64.Idx → EReal) (v : S_.Idx → EReal) (j : Fin 50000) (hj : j.val < 50176) (k : Fin 64) :
    pad S50176x64 ![0, 0] ![176, 0] ![0, 0] x v pads_S50000x64_S50176x64_01760_000 h_S_ (ix2 (⟨j.val, hj⟩ : Fin 50176) k)
      = x (ix2 j k) :=
  pad_apply_of_inside ![0, 0] ![176, 0] ![0, 0] x v pads_S50000x64_S50176x64_01760_000 h_S_
    (ix2 (⟨j.val, hj⟩ : Fin 50176) k) (ix2 j k) (fun a => match a with
      | ⟨0, _⟩ => by show j.val = 0 + j.val * (0 + 1); omega
      | ⟨1, _⟩ => by show k.val = 0 + k.val * (0 + 1); omega)

/-- A row padded with columns at the end reads, at a column below the original extent, the original row. -/
theorem pad_cols (x : S1x50000.Idx → EReal) (v : S_.Idx → EReal) (j : Fin 50000) (hj : j.val < 50176) :
    pad S1x50176 ![0, 0] ![0, 176] ![0, 0] x v pads_S1x50000_S1x50176_000_01760 h_S_ (ix2 (0 : Fin 1) (⟨j.val, hj⟩ : Fin 50176))
      = x (ix2 (0 : Fin 1) j) :=
  pad_apply_of_inside ![0, 0] ![0, 176] ![0, 0] x v pads_S1x50000_S1x50176_000_01760 h_S_
    (ix2 (0 : Fin 1) (⟨j.val, hj⟩ : Fin 50176)) (ix2 (0 : Fin 1) j) (fun a => match a with
      | ⟨0, _⟩ => by show 0 = 0 + 0 * (0 + 1); omega
      | ⟨1, _⟩ => by show j.val = 0 + j.val * (0 + 1); omega)

/-- THE TWO PROGRAMS COMPUTE ONE FUNCTION: the kernel program's result is the reference's result function of the same
    arguments. Entry (b, j) of either is the score of user b against item j; the kernel's padding rows never enter an
    entry with j < 50000, and both programs prepare the operands by the same host operations. -/
theorem result_eq (c : Dev nD) :
    Cert.KernelIdeal.Blocks.sliced m c
      = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨b, j, rfl⟩ : ∃ (b : Fin 256) (j : Fin 50000), i = ix2 b j := ⟨i 0, i 1, eq_ix2 i⟩
  have hj : j.val < 50176 := Nat.lt_trans j.isLt (by decide)
  rw [Cert.KernelIdeal.Blocks.sliced_entry m c b j hj, Cert.ReferenceIdeal.RefValue.ref_score]
  unfold Cert.KernelIdeal.Blocks.entry
  refine Cert.KernelIdeal.Blocks.score_congr (V_main_arg13 m c) (V_main_arg14 m c) (V_main_arg15 m c) (V_main_arg16 m c)
    (V_main_arg9 m c) (V_main_arg10 m c) (V_main_arg11 m c) (V_main_arg12 m c) ?_ ?_ ?_ ?_ ?_
  · funext k; exact congrFun (Cert.KernelIdeal.KHost.found_users m c) (ix2 b k)
  · exact congrFun (Cert.KernelIdeal.KHost.found_ubias m c) (ix2 b (0 : Fin 1))
  · exact (congrFun (Cert.KernelIdeal.KHost.found_ibias m c) (ix2 (0 : Fin 1) (⟨j.val, hj⟩ : Fin 50176))).trans
      (pad_cols _ _ j hj)
  · funext k
    exact (congrFun (Cert.KernelIdeal.KHost.found_items m c) (ix2 (⟨j.val, hj⟩ : Fin 50176) k)).trans (pad_rows _ _ j hj k)
  · funext k
    exact (congrFun (Cert.KernelIdeal.KHost.found_pop m c) (ix2 (⟨j.val, hj⟩ : Fin 50176) k)).trans (pad_rows _ _ j hj k)

/-- The reference's result on arguments that agree with the kernel program's is the kernel program's result. -/
theorem ref_result (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.Value.res_main_v125 m' c = Cert.KernelIdeal.Blocks.sliced m c := by
  obtain ⟨h0, h1, h2, h3, h4, h5, h6, h7, h8, h9, h10, h11, h12, h13, h14, h15, h16, h17, h18, h19, h20, h21⟩ := hag
  rw [Cert.ReferenceIdeal.Read.val_main_v125_eq, h0, h1, h2, h3, h4, h5, h6, h7, h8, h9, h10, h11, h12, h13, h14, h15, h16, h17, h18, h19, h20, h21]
  exact (result_eq m c).symm

end Cert.Proof.Bridge

end
-- ==== Proof.lean ====
/-
  The kernel scores 256 users against 50000 items: three rounds of neighbour aggregation over the user–item graph, a
  popularity gate on every item (a two-layer network of the item's row and its popularity-bin row, through a logistic),
  the gated mix of the two rows, a two-layer item tower, and the inner product with a two-layer user tower of the
  gathered user rows, plus a user bias and an item bias. The aggregation, the look-ups and the user tower run as host
  operations in both programs, the same operations on the same arguments; the kernel's region does the per-item part on
  tiles of 3584 items of the item list padded to 50176, and one host operation cuts the padding off again.

  At the exact instance every entry (b, j) of either result is `Score.score` of user b's vector and bias against item
  j's two rows and bias (Proof/Spec.lean): for the kernel by the body's arithmetic at an entry (Proof/Payload.lean over
  Proof/KLayout.lean), the tiling of the output by the fourteen blocks and the final slice (Proof/Blocks.lean) and the
  operands the region finds (Proof/KHost*.lean); for the reference by its run read one operation at a time
  (Proof/RefValue.lean). No entry with j < 50000 sees a padding row, the changes of float format are the identity, a
  block product into a zero accumulator is the host's contraction, and the reference's negate, exponential, add and
  divide spell the kernel's logistic; no law that needs finiteness is used (Proof/Bridge.lean).
  The frames of the two kernel programs are the generated ones; the reference's is its generated run.
-/
import proofs.«158885_j34694745817427_1_alg».proof.Defs
import proofs.«158885_j34694745817427_1_alg».proof.Proof.Gen.Kernel
import proofs.«158885_j34694745817427_1_alg».proof.Proof.Gen.Kernel.Skeleton
import proofs.«158885_j34694745817427_1_alg».proof.Proof.Gen.Kernel.Launch
import proofs.«158885_j34694745817427_1_alg».proof.Proof.Gen.Kernel.Points
import proofs.«158885_j34694745817427_1_alg».proof.Proof.Gen.Kernel.Frame
import proofs.«158885_j34694745817427_1_alg».proof.Proof.Gen.KernelIdeal
import proofs.«158885_j34694745817427_1_alg».proof.Proof.Gen.KernelIdeal.Skeleton
import proofs.«158885_j34694745817427_1_alg».proof.Proof.Gen.KernelIdeal.Launch
import proofs.«158885_j34694745817427_1_alg».proof.Proof.Gen.KernelIdeal.Points
import proofs.«158885_j34694745817427_1_alg».proof.Proof.Gen.KernelIdeal.Frame
import proofs.«158885_j34694745817427_1_alg».proof.Proof.Gen.ReferenceIdeal
import proofs.«158885_j34694745817427_1_alg».proof.Proof.Gen.ReferenceIdeal.Run
import proofs.«158885_j34694745817427_1_alg».proof.Proof.Gen.ReferenceIdeal.Read
import proofs.«158885_j34694745817427_1_alg».proof.Proof.Gen.Pre_finite_inputs
import proofs.«158885_j34694745817427_1_alg».proof.Proof.Blocks
import proofs.«158885_j34694745817427_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments unchanged. -/
theorem frame_k : Cert.frame_Kernel := fun m ρ _ => Cert.Kernel.Gen.frame m ρ

/-- So does the kernel program read at the exact instance. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same [256, 50000] array of scores: the kernel
    program with the slice of what its region leaves, the reference with its result function of the same arguments;
    the two are one function. -/
theorem algebraic : Cert.algebraic_KernelIdeal_ReferenceIdeal := by
  intro m ρ m' ρ' _ hagree
  refine ⟨fun c => Cert.KernelIdeal.Blocks.sliced m c, Cert.KernelIdeal.Blocks.run_kernel m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.ref_result m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
